-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S2x1x128 : Shape := ⟨3, ![2, 1, 128]⟩
abbrev S8000x128 : Shape := ⟨2, ![8000, 128]⟩
abbrev S1x1x128 : Shape := ⟨3, ![1, 1, 128]⟩
abbrev S50000 : Shape := ⟨1, ![50000]⟩
abbrev S50000x1 : Shape := ⟨2, ![50000, 1]⟩

abbrev nBuf : Space → Nat
  | .hbm => 82
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S128x128, .f32⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .f32⟩
  | .hbm, ⟨34, _⟩ => ⟨S128x128, .bf16⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S800000x128, .bf16⟩
  | .hbm, ⟨39, _⟩ => ⟨S2x1x128, .f32⟩
  | .hbm, ⟨40, _⟩ => ⟨S2x1x128, .f32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S8000x128, .bf16⟩
  | .local _ .vmem, ⟨8, _⟩ => ⟨S8000x128, .bf16⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S8000x128, .bf16⟩
  | .local _ .vmem, ⟨14, _⟩ => ⟨S8000x128, .bf16⟩
  | .local _ .vmem, ⟨15, _⟩ => ⟨S1x128, .f32⟩
  | .local _ .vmem, ⟨16, _⟩ => ⟨S1x128, .f32⟩
  | .local _ .vmem, ⟨17, _⟩ => ⟨S8000x128, .f32⟩
  | .local _ .vmem, ⟨18, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  packedbf16_S8000x128_S8000x128_0_0 : (Rect.unit (s := S8000x128) ![0, 0] S8000x128.size inb_S8000x128_S8000x128_0_0).PackedRows (EltTy.packing .bf16)
  reduces_S8000x128_S128 : S8000x128.Reduces [0] S128
  reducesTo_S2x1x128_S128_d0_1 : S2x1x128.ReducesTo [0, 1] S128
  h_S_ : 0 < S_.numel
  bcast_S_S1x128 : S_.BroadcastsInDim S1x128 (![] : Fin 0 → Fin S1x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .bf16 = 32 ∨ (Rect.block (s := S800000x128) S8000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .bf16 = 32 ∨ (Rect.block (s := S800000x128) S8000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v11) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28_0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S256x128 : Shape := ⟨2, ![256, 128]⟩
abbrev S1x128 : Shape := ⟨2, ![1, 128]⟩
abbrev S50000 : Shape := ⟨1, ![50000]⟩
abbrev S50000x1 : Shape := ⟨2, ![50000, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S256x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S800000, .f32⟩
  | .hbm, ⟨73, _⟩ => ⟨S_, .f32⟩
  | .hbm, ⟨74, _⟩ => ⟨S50000, .f32⟩
  | .hbm, ⟨75, _⟩ => ⟨S800000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_cst : Ref sig .tc := ⟨.hbm, 64, rfl⟩
abbrev main_call0_v0 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The run of the idealized kernel program with its two results named: every weakly fair execution ends, nothing faulting,
  with each result buffer at the contents the last boundary of the program holds for it — the host operations after the
  second call applied to what the two calls left — and the argument arrays as launched. It is the launch theorem for a
  program of several calls among stretches of host operations, applied to the generated segments and boundary contents,
  with the final state read at the two result buffers as well as at the arguments.
-/
import proofs.«117275_j9715216023597_2_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the results named: result 0 (the node means) and result 1 (the edge activations) end at the last
    boundary's contents, the arguments as launched. -/
theorem run_results : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)), h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Results

end
-- ==== Proof.Entry0.lean ====
/-
  What the first call finds when it is entered, as functions of the program's arguments (at the ideal values, where a change
  of float format is the identity): the two gathered feature arrays are the reference's two gathers of x at the target and
  source ends of the edges; the two weight blocks are the transposes of the left and right halves of W1, so entry (k, j)
  is W1 (j, k) and W1 (j, 128 + k); the bias, gain and offset rows are the vectors b1, gamma and beta laid as one row; and the
  target index vector kept for the scatter after the second call is the reference's.
-/
import proofs.«117275_j9715216023597_2_alg».proof.Proof.Gen.KernelIdeal.Frame
import proofs.«117275_j9715216023597_2_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Entry0

open Idealize.ShloMosaic Idealize.ShloMosaic.TcCoe Idealize.SL.Sem Idealize.ShloMosaic.ValueIdx
open Idealize.ShloMosaic.Pipeline (Dat)
open Cert.KernelIdeal Cert.KernelIdeal.Gen Idealize.ShloMosaic.StableHlo

variable (m : (ℓ : Loc nD τ sig) → Buf (Elt Ideal) ℓ) (ρ : Dev nD → PrngReg) (c : Dev nD)

/-- The features gathered at the edges' target ends. -/
theorem feat_dst : (V1 m ρ c main_v11 : S800000x128.Idx → EReal)
    = Cert.ReferenceIdeal.Read.val_main_v10 (F := Ideal) (m ((c : Thread nD τ).loc main_arg0)) (m ((c : Thread nD τ).loc main_arg1)) := by
  show StableHlo.after hostOps0 (W0 m ρ c) (Proc.devRef .tc main_v11) = _
  after_results_simp <;> rfl

/-- The features gathered at the edges' source ends. -/
theorem feat_src : (V1 m ρ c main_v18 : S800000x128.Idx → EReal)
    = Cert.ReferenceIdeal.Read.val_main_v17 (F := Ideal) (m ((c : Thread nD τ).loc main_arg0)) (m ((c : Thread nD τ).loc main_arg1)) := by
  show StableHlo.after hostOps0 (W0 m ρ c) (Proc.devRef .tc main_v18) = _
  after_results_simp <;> rfl

/-- The edges' target indices, as the scatter after the second call reads them. -/
theorem target_idx : (V1 m ρ c main_v1 : S800000.Idx → BitVec 32)
    = Cert.ReferenceIdeal.Read.val_main_v3 (F := Ideal) (m ((c : Thread nD τ).loc main_arg1)) := by
  show StableHlo.after hostOps0 (W0 m ρ c) (Proc.devRef .tc main_v1) = _
  after_results_simp <;> rfl

/-- The weight block of the target-end features: the transpose of the left half of W1. -/
theorem weight_dst (k j : Fin 128) :
    (V1 m ρ c main_v21 : S128x128.Idx → EReal) (ix2 k j) = (m ((c : Thread nD τ).loc main_arg2)) (ix2 j (⟨k.val, by omega⟩ : Fin 256)) := by
  have e : (V1 m ρ c main_v21 : S128x128.Idx → EReal)
      = truncf (F := Ideal) .bf16 (transpose S128x128 [1, 0] (extractStridedSlice S128x128 ![0, 0] (m ((c : Thread nD τ).loc main_arg2)) slices_S128x256_S128x128_0_0)
          transposes_S128x128_S128x128_1_0) bitsLt_bf16_f32 := by
    show StableHlo.after hostOps0 (W0 m ρ c) (Proc.devRef .tc main_v21) = _
    after_results_simp <;> rfl
  rw [e, truncf_apply, transpose_ix2_apply]
  exact slice2_axis1_apply 0 _ _ j k _ (by show k.val = 0 + k.val; omega)

/-- The weight block of the source-end features: the transpose of the right half of W1. -/
theorem weight_src (k j : Fin 128) :
    (V1 m ρ c main_v24 : S128x128.Idx → EReal) (ix2 k j) = (m ((c : Thread nD τ).loc main_arg2)) (ix2 j (⟨128 + k.val, by omega⟩ : Fin 256)) := by
  have e : (V1 m ρ c main_v24 : S128x128.Idx → EReal)
      = truncf (F := Ideal) .bf16 (transpose S128x128 [1, 0] (extractStridedSlice S128x128 ![0, 128] (m ((c : Thread nD τ).loc main_arg2)) slices_S128x256_S128x128_0_128)
          transposes_S128x128_S128x128_1_0) bitsLt_bf16_f32 := by
    show StableHlo.after hostOps0 (W0 m ρ c) (Proc.devRef .tc main_v24) = _
    after_results_simp <;> rfl
  rw [e, truncf_apply, transpose_ix2_apply]
  exact slice2_axis1_apply 128 _ _ j k _ rfl

/-- The bias row is b1. -/
theorem bias_row (q : Fin 128) : (V1 m ρ c main_v25 : S1x128.Idx → EReal) (ix2 (0 : Fin 1) q) = (m ((c : Thread nD τ).loc main_arg3)) (ix1 q) := by
  have e : (V1 m ρ c main_v25 : S1x128.Idx → EReal) = shapeCast S1x128 (m ((c : Thread nD τ).loc main_arg3)) shapeCasts_S128_S1x128 := by
    show StableHlo.after hostOps0 (W0 m ρ c) (Proc.devRef .tc main_v25) = _
    after_results_simp <;> rfl
  rw [e, shapeCast_a_1a_apply]

/-- The gain row is gamma. -/
theorem gain_row (q : Fin 128) : (V1 m ρ c main_v26 : S1x128.Idx → EReal) (ix2 (0 : Fin 1) q) = (m ((c : Thread nD τ).loc main_arg4)) (ix1 q) := by
  have e : (V1 m ρ c main_v26 : S1x128.Idx → EReal) = shapeCast S1x128 (m ((c : Thread nD τ).loc main_arg4)) shapeCasts_S128_S1x128 := by
    show StableHlo.after hostOps0 (W0 m ρ c) (Proc.devRef .tc main_v26) = _
    after_results_simp <;> rfl
  rw [e, shapeCast_a_1a_apply]

/-- The offset row is beta. -/
theorem offset_row (q : Fin 128) : (V1 m ρ c main_v27 : S1x128.Idx → EReal) (ix2 (0 : Fin 1) q) = (m ((c : Thread nD τ).loc main_arg5)) (ix1 q) := by
  have e : (V1 m ρ c main_v27 : S1x128.Idx → EReal) = shapeCast S1x128 (m ((c : Thread nD τ).loc main_arg5)) shapeCasts_S128_S1x128 := by
    show StableHlo.after hostOps0 (W0 m ρ c) (Proc.devRef .tc main_v27) = _
    after_results_simp <;> rfl
  rw [e, shapeCast_a_1a_apply]

end Cert.KernelIdeal.Entry0

end
-- ==== Proof.Region0Pieces.lean ====
/-
  The first call, one grid point: what the body leaves in each of its three output buffers, as values of the five input
  blocks (and, away from the first point of a core's share, of what the two running totals held before).
  The block of h is the two products plus the bias row; the running column total of h is its old value (zero at the first
  point of a share) plus the block's column sums; the running total of squares likewise, over the squared block.
-/
import proofs.«117275_j9715216023597_2_alg».proof.Proof.Gen.KernelIdeal.Frame
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point of a share the h buffer is left at the block of h (narrowed to the storage format). -/
theorem outA5 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : cond0_0 i) (x0 : Vec F S8000x128 .bf16) (x1 : Vec F S8000x128 .bf16) (x2 : Vec F S128x128 .bf16) (x3 : Vec F S128x128 .bf16) (x4 : Vec F S1x128 .f32) :
    out0_A_5 c i arg2 harg2 arg3 harg3 arg4 harg4 arg5 harg5 arg6 harg6 arg7 harg7 arg8 harg8 arg9 harg9 hc0 x0 x1 x2 x3 x4 = k0_pay5 x0 x1 x2 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  rw [View.canon_unit_zero hz2]
  simp only [View.readAt_eq_ld, harg2.read_unread, harg3.read_unread, harg4.read_unread, harg5.read_unread, harg6.read_unread, View.ld_unit_zero (S := S8000x128) hz2, View.ld_unit_zero (S := S128x128) hz2, View.ld_unit_zero (S := S1x128) hz2]

/-- At the first point of a share the column total is left at zero plus the block's column sums. -/
theorem outA6 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : cond0_0 i) (x0 : Vec F S8000x128 .bf16) (x1 : Vec F S8000x128 .bf16) (x2 : Vec F S128x128 .bf16) (x3 : Vec F S128x128 .bf16) (x4 : Vec F S1x128 .f32) :
    out0_A_6 c i arg2 harg2 arg3 harg3 arg4 harg4 arg5 harg5 arg6 harg6 arg7 harg7 arg8 harg8 arg9 harg9 hc0 x0 x1 x2 x3 x4 = k0_pay6 x0 x1 x2 x3 x4 k0_pay2 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, View.ld_unit_zero (S := S8000x128) hz2, View.ld_unit_zero (S := S128x128) hz2, View.ld_unit_zero (S := S1x128) hz2]

/-- At the first point of a share the total of squares is left at zero plus the squared block's column sums. -/
theorem outA7 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : cond0_0 i) (x0 : Vec F S8000x128 .bf16) (x1 : Vec F S8000x128 .bf16) (x2 : Vec F S128x128 .bf16) (x3 : Vec F S128x128 .bf16) (x4 : Vec F S1x128 .f32) :
    out0_A_7 c i arg2 harg2 arg3 harg3 arg4 harg4 arg5 harg5 arg6 harg6 arg7 harg7 arg8 harg8 arg9 harg9 hc0 x0 x1 x2 x3 x4 = k0_pay1 (k0_pay4 x0 x1 x2 x3 x4) k0_pay3 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, View.ld_unit_zero (S := S8000x128) hz2, View.ld_unit_zero (S := S128x128) hz2, View.ld_unit_zero (S := S1x128) hz2]

/-- At the other points the h buffer is left at the block of h. -/
theorem outB5 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (x0 : Vec F S8000x128 .bf16) (x1 : Vec F S8000x128 .bf16) (x2 : Vec F S128x128 .bf16) (x3 : Vec F S128x128 .bf16) (x4 : Vec F S1x128 .f32) (xo6 : Vec F S1x1x128 .f32) (xo7 : Vec F S1x1x128 .f32) :
    out0_B_5 c i arg2 harg2 arg3 harg3 arg4 harg4 arg5 harg5 arg6 harg6 arg7 harg7 arg8 harg8 arg9 harg9 hc0 x0 x1 x2 x3 x4 xo6 xo7 = k0_pay5 x0 x1 x2 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  rw [View.canon_unit_zero hz2]
  simp only [View.readAt_eq_ld, harg2.read_unread, harg3.read_unread, harg4.read_unread, harg5.read_unread, harg6.read_unread, View.ld_unit_zero (S := S8000x128) hz2, View.ld_unit_zero (S := S128x128) hz2, View.ld_unit_zero (S := S1x128) hz2]

/-- At the other points the column total is left at its old value plus the block's column sums. -/
theorem outB6 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (x0 : Vec F S8000x128 .bf16) (x1 : Vec F S8000x128 .bf16) (x2 : Vec F S128x128 .bf16) (x3 : Vec F S128x128 .bf16) (x4 : Vec F S1x128 .f32) (xo6 : Vec F S1x1x128 .f32) (xo7 : Vec F S1x1x128 .f32) :
    out0_B_6 c i arg2 harg2 arg3 harg3 arg4 harg4 arg5 harg5 arg6 harg6 arg7 harg7 arg8 harg8 arg9 harg9 hc0 x0 x1 x2 x3 x4 xo6 xo7 = k0_pay6 x0 x1 x2 x3 x4 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  rw [View.canon_unit_zero hz3]
  simp only [View.readAt_eq_ld, harg2.read_unread, harg3.read_unread, harg4.read_unread, harg5.read_unread, harg6.read_unread, harg8.read_unread, View.ld_unit_zero (S := S8000x128) hz2, View.ld_unit_zero (S := S128x128) hz2, View.ld_unit_zero (S := S1x128) hz2, View.ld_unit_zero (S := S1x1x128) hz3]

/-- At the other points the total of squares is left at its old value plus the squared block's column sums. -/
theorem outB7 (c : Dev nD) (i : grid0.Coords) (arg2 : Memref sig .tc .vmem S8000x128 .bf16) (harg2 : arg2.IsWhole) (arg3 : Memref sig .tc .vmem S8000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S8000x128 .bf16) (harg7 : arg7.IsWhole) (arg8 : Memref sig .tc .vmem S1x1x128 .f32) (harg8 : arg8.IsWhole) (arg9 : Memref sig .tc .vmem S1x1x128 .f32) (harg9 : arg9.IsWhole) (hc0 : ¬cond0_0 i) (x0 : Vec F S8000x128 .bf16) (x1 : Vec F S8000x128 .bf16) (x2 : Vec F S128x128 .bf16) (x3 : Vec F S128x128 .bf16) (x4 : Vec F S1x128 .f32) (xo6 : Vec F S1x1x128 .f32) (xo7 : Vec F S1x1x128 .f32) :
    out0_B_7 c i arg2 harg2 arg3 harg3 arg4 harg4 arg5 harg5 arg6 harg6 arg7 harg7 arg8 harg8 arg9 harg9 hc0 x0 x1 x2 x3 x4 xo6 xo7 = k0_pay1 (k0_pay4 x0 x1 x2 x3 x4) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz3]
  simp only [View.readAt_eq_ld, harg2.read_unread, harg3.read_unread, harg4.read_unread, harg5.read_unread, harg6.read_unread, harg9.read_unread, View.ld_unit_zero (S := S8000x128) hz2, View.ld_unit_zero (S := S128x128) hz2, View.ld_unit_zero (S := S1x128) hz2, View.ld_unit_zero (S := S1x1x128) hz3]

end Cert.KernelIdeal.Region0

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibAxis0Sum.lean ====
/-
  General lemmas: the LEADING axis — sums over it, a product contracting it, and two unit axes put in front — read at an
  index, at the ideal values.

  * the host's sum over axis 0 of an `[a, b]` array is, at `k`, the initial value plus the sum over `p` of the entries
    `(p, k)`; of an `[a, b, c]` array, at `(k, j)`, the initial value plus the sum over `p` of the entries `(p, k, j)`;
  * the vector unit's sum over axis 0 of an `[a, b]` array (from the zero word) is the plain sum over the rows;
  * a matrix product `[k, a] × [k, b]` contracting both FIRST axes into a zero accumulator is the sum over `q` of
    `L (q, p) · R (q, j)`;
  * a `[b]` array cast to `[1, 1, b]` reads the operand at the trailing coordinate.
  Nothing here mentions a program: the extents are variables and the shape facts and dimension records are hypotheses.
-/
import Idealize.ShloMosaic.Lib.ValueLayout
import Idealize.ShloMosaic.Lib.ValueIdx
import Idealize.ShloMosaic.PureOps.Ideal.Laws

noncomputable section

namespace Cert.LibAxis0Sum

open Idealize.ShloMosaic Idealize.ShloMosaic.ValueIdx

/-- The reduced index `k` of an `[a, b]` array with row `p` put back on axis 0 is `(p, k)`. -/
theorem lift_first2 {a b : ℕ} (h : (⟨2, ![a, b]⟩ : Shape).Reduces [0] (⟨1, ![b]⟩ : Shape)) (k : Fin b)
    (p : Fin ((⟨2, ![a, b]⟩ : Shape).size 0)) : h.lift (ix1 k) p = ix2 (⟨p.val, p.isLt⟩ : Fin a) k := by
  funext ax; apply Fin.ext
  fin_cases ax <;> rfl

/-- The host's sum over axis 0 of an `[a, b]` array, read at `k`: the initial value plus the column's sum. -/
theorem hostFirstSum2_apply {a b : ℕ} (x : FVec Ideal ⟨2, ![a, b]⟩ .f32) (init : (⟨0, ![]⟩ : Shape).Idx → Ideal .f32)
    (h' : (⟨2, ![a, b]⟩ : Shape).ReducesTo [0] (⟨1, ![b]⟩ : Shape)) (hu : 0 < (⟨0, ![]⟩ : Shape).numel) (k : Fin b) :
    Host.reduceAdd x init h' hu (ix1 k) = init ix0 + ∑ p : Fin a, x (ix2 p k) := by
  have h : (⟨2, ![a, b]⟩ : Shape).Reduces [0] (⟨1, ![b]⟩ : Shape) := ⟨h'.1, Nat.one_pos, h'.2⟩
  show Ideal.hostReduceAdd h' x (init (Shape.Idx.first hu)) (ix1 k) = _
  rw [Ideal.hostReduceAdd_single h' h, show Shape.Idx.first hu = ix0 from eq_ix0 _]
  exact congrArg (init ix0 + ·) (Finset.sum_congr rfl fun p _ => congrArg x (lift_first2 h k p))

/-- The reduced index `(k, j)` of an `[a, b, c]` array with `p` put back on axis 0 is `(p, k, j)`. -/
theorem lift_first3 {a b c : ℕ} (h : (⟨3, ![a, b, c]⟩ : Shape).Reduces [0] (⟨2, ![b, c]⟩ : Shape)) (k : Fin b) (j : Fin c)
    (p : Fin ((⟨3, ![a, b, c]⟩ : Shape).size 0)) : h.lift (ix2 k j) p = ix3 (⟨p.val, p.isLt⟩ : Fin a) k j := by
  funext ax; apply Fin.ext
  fin_cases ax <;> rfl

/-- The host's sum over axis 0 of an `[a, b, c]` array, read at `(k, j)`: the initial value plus the sum over `p`. -/
theorem hostFirstSum3_apply {a b c : ℕ} (x : FVec Ideal ⟨3, ![a, b, c]⟩ .f32) (init : (⟨0, ![]⟩ : Shape).Idx → Ideal .f32)
    (h' : (⟨3, ![a, b, c]⟩ : Shape).ReducesTo [0] (⟨2, ![b, c]⟩ : Shape)) (hu : 0 < (⟨0, ![]⟩ : Shape).numel)
    (k : Fin b) (j : Fin c) :
    Host.reduceAdd x init h' hu (ix2 k j) = init ix0 + ∑ p : Fin a, x (ix3 p k j) := by
  have h : (⟨3, ![a, b, c]⟩ : Shape).Reduces [0] (⟨2, ![b, c]⟩ : Shape) := ⟨h'.1, Nat.succ_pos 1, h'.2⟩
  show Ideal.hostReduceAdd h' x (init (Shape.Idx.first hu)) (ix2 k j) = _
  rw [Ideal.hostReduceAdd_single h' h, show Shape.Idx.first hu = ix0 from eq_ix0 _]
  exact congrArg (init ix0 + ·) (Finset.sum_congr rfl fun p _ => congrArg x (lift_first3 h k j p))

/-- A matrix product of a `[k, a]` by a `[k, b]` array into the zero accumulator, whose dimension record contracts the
    FIRST axis of each operand (the four coordinate facts), is at `(p, j)` the sum over `q` of `L (q, p) · R (q, j)`. -/
theorem matmul_zero_tn_ix2 {a k b : ℕ} {φ₁ φ₂ : FTy} (D : DotDims ⟨2, ![k, a]⟩ ⟨2, ![k, b]⟩ ⟨2, ![a, b]⟩)
    (hr : D.contr.rank = 1) (hs : D.contr.size ⟨0, by omega⟩ = k)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val)
    (prec : Option ContractPrecision) (L : FVec Ideal ⟨2, ![k, a]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 q p) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 q p := funext fun ax => Fin.ext (by
    match ax with
    | ⟨0, _⟩ => exact (hl0 _ _).trans hq
    | ⟨1, _⟩ => exact hl1 _ _)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The sum over the rows of an `[a, b]` array, read at column `k`: the sum over `r` of the entries `(r, k)`. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32) (hacc : acc = FKind.add.neutral .f32 hφ) (k : Fin b) :
    multiReduction .add [0] ⟨1, ![b]⟩ src acc h hφ hacc (ix1 k) = ∑ r : Fin a, src (ix2 r k) := by
  refine (Ideal.multiReduction_add_single src acc h hφ hacc (ix1 k)).trans ?_
  exact Finset.sum_congr rfl fun r _ => congrArg src (lift_first2 h k r)

/-- A `[b]` array cast to `[1, 1, b]` reads, at `(u, v, k)`, the operand at `k`. -/
theorem shapeCast_b_11b_apply {α : Type} {b : ℕ} (x : (⟨1, ![b]⟩ : Shape).Idx → α) (h : (⟨1, ![b]⟩ : Shape).ShapeCasts ⟨3, ![1, 1, b]⟩)
    (u v : Fin 1) (k : Fin b) : shapeCast ⟨3, ![1, 1, b]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * b + k.val
    rw [hu, hv]; omega)

end Cert.LibAxis0Sum

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.LibEdgeLinear.lean ====
/-
  General lemmas: the linear layer of an edge network on a pair of gathered node features, over the extended reals.

  For arrays xi, xj of shape [E, k] (the features of an edge's two end nodes), weights wi, wj of shape [k, n] and a bias row
  b of shape [1, n], the layer's entry (p, j) is the sum over q of xi (p, q) · wi (q, j), plus the sum over q of
  xj (p, q) · wj (q, j), plus b (0, j).
  * `preAt_congr`: entry (p, j) reads only row p of the features, column j of the weights and entry j of the bias;
  * `joined_dot`: the product of the two feature arrays joined along their columns with a [k + k, n] weight whose upper
    half is wi and lower half wj is the sum of the two products (a sum over k + k positions is the sum over the first k plus
    the sum over the last k; sums in the extended reals commute and associate, also at the infinities);
  * `sum_shares`: a sum over 800000 = 2 · 50 · 8000 consecutive naturals, cut into 2 shares of 50 blocks of 8000.
  Nothing here mentions a program.
-/
import Idealize.ShloMosaic.Lib.ValueIdx
import proofs.«117275_j9715216023597_2_alg».proof.Proof.LibConcat2
import proofs.«117275_j9715216023597_2_alg».proof.Proof.LibBlockSum

noncomputable section

namespace Cert.LibEdgeLinear

open Idealize.ShloMosaic Idealize.ShloMosaic.ValueIdx

variable {E k n : ℕ}

/-- Entry (p, j) of xi · wi + xj · wj + b. -/
def preAt (xi xj : (⟨2, ![E, k]⟩ : Shape).Idx → EReal) (wi wj : (⟨2, ![k, n]⟩ : Shape).Idx → EReal)
    (b : (⟨2, ![1, n]⟩ : Shape).Idx → EReal) (p : Fin E) (j : Fin n) : EReal :=
  (∑ q : Fin k, xi (ix2 p q) * wi (ix2 q j)) + (∑ q : Fin k, xj (ix2 p q) * wj (ix2 q j)) + b (ix2 (0 : Fin 1) j)

/-- Entry (p, j) reads only row p of the features, column j of the weights and entry j of the bias. -/
theorem preAt_congr {E' : ℕ} (Xi Xj : (⟨2, ![E, k]⟩ : Shape).Idx → EReal) (Wi Wj : (⟨2, ![k, n]⟩ : Shape).Idx → EReal)
    (B : (⟨2, ![1, n]⟩ : Shape).Idx → EReal)
    (xi xj : (⟨2, ![E', k]⟩ : Shape).Idx → EReal) (wi wj : (⟨2, ![k, n]⟩ : Shape).Idx → EReal)
    (b : (⟨2, ![1, n]⟩ : Shape).Idx → EReal) (p : Fin E') (p' : Fin E) (j : Fin n)
    (hi : ∀ q : Fin k, xi (ix2 p q) = Xi (ix2 p' q)) (hj : ∀ q : Fin k, xj (ix2 p q) = Xj (ix2 p' q))
    (hwi : ∀ q : Fin k, wi (ix2 q j) = Wi (ix2 q j)) (hwj : ∀ q : Fin k, wj (ix2 q j) = Wj (ix2 q j))
    (hb : b (ix2 (0 : Fin 1) j) = B (ix2 (0 : Fin 1) j)) :
    preAt xi xj wi wj b p j = preAt Xi Xj Wi Wj B p' j := by
  unfold preAt
  rw [hb, Finset.sum_congr rfl fun q _ => (by rw [hi q, hwi q] : xi (ix2 p q) * wi (ix2 q j) = Xi (ix2 p' q) * Wi (ix2 q j)),
    Finset.sum_congr rfl fun q _ => (by rw [hj q, hwj q] : xj (ix2 p q) * wj (ix2 q j) = Xj (ix2 p' q) * Wj (ix2 q j))]

/-- The joined features times the stacked weight is the sum of the two products. -/
theorem joined_dot {c : ℕ} (hc : c = k + k) (cat : (⟨2, ![E, c]⟩ : Shape).Idx → EReal) (wt : (⟨2, ![c, n]⟩ : Shape).Idx → EReal)
    (xi xj : (⟨2, ![E, k]⟩ : Shape).Idx → EReal) (wi wj : (⟨2, ![k, n]⟩ : Shape).Idx → EReal) (p : Fin E) (j : Fin n)
    (hcl : ∀ (q : Fin k) (h : q.val < c), cat (ix2 p ⟨q.val, h⟩) = xi (ix2 p q))
    (hcr : ∀ (q : Fin k) (h : k + q.val < c), cat (ix2 p ⟨k + q.val, h⟩) = xj (ix2 p q))
    (hwl : ∀ (q : Fin k) (h : q.val < c), wt (ix2 ⟨q.val, h⟩ j) = wi (ix2 q j))
    (hwr : ∀ (q : Fin k) (h : k + q.val < c), wt (ix2 ⟨k + q.val, h⟩ j) = wj (ix2 q j)) :
    ∑ q : Fin c, cat (ix2 p q) * wt (ix2 q j)
      = (∑ q : Fin k, xi (ix2 p q) * wi (ix2 q j)) + ∑ q : Fin k, xj (ix2 p q) * wj (ix2 q j) := by
  rw [LibConcat2.sum_two_halves hc]
  congr 1
  · exact Finset.sum_congr rfl fun q _ => by rw [hcl q, hwl q]
  · exact Finset.sum_congr rfl fun q _ => by rw [hcr q, hwr q]

/-- 800000 consecutive naturals as 2 shares of 50 blocks of 8000. -/
theorem sum_shares {β : Type*} [AddCommMonoid β] (g : ℕ → β) :
    ∑ a : Fin 2, ∑ j : Fin 50, ∑ r : Fin 8000, g ((50 * a.val + j.val) * 8000 + r.val) = ∑ m : Fin 800000, g m.val := by
  have inner : ∀ a : ℕ, ∑ j : Fin 50, ∑ r : Fin 8000, g ((50 * a + j.val) * 8000 + r.val)
      = ∑ m : Fin 400000, g (a * 400000 + m.val) := by
    intro a
    rw [← Finset.sum_range (fun j => ∑ r : Fin 8000, g ((50 * a + j) * 8000 + r.val))]
    refine Eq.trans (Finset.sum_congr rfl fun s _ => Finset.sum_congr rfl fun r _ => ?_)
      (LibBlockSum.sum_fin_blocks (fun m => g (a * 400000 + m)) 50 8000)
    show g ((50 * a + s) * 8000 + r.val) = g (a * 400000 + (s * 8000 + r.val))
    congr 1
    ring
  simp only [inner]
  rw [← Finset.sum_range (fun a => ∑ m : Fin 400000, g (a * 400000 + m.val))]
  exact LibBlockSum.sum_fin_blocks g 2 400000

end Cert.LibEdgeLinear

end
-- ==== Proof.Region0Point.lean ====
/-
  The first call, the arithmetic of one grid point at the ideal values, read at an index: the block of h at (p, q) is the
  layer's entry of the point's input blocks; the running column total at column q is its old value plus the sum over the
  block's 8000 rows; the running total of squares likewise over the squares; the two zero blocks read zero.
-/
import proofs.«117275_j9715216023597_2_alg».proof.Proof.Gen.KernelIdeal.Frame
import proofs.«117275_j9715216023597_2_alg».proof.Proof.Region0Pieces
import proofs.«117275_j9715216023597_2_alg».proof.Proof.LibAffine
import proofs.«117275_j9715216023597_2_alg».proof.Proof.LibPlainDot
import proofs.«117275_j9715216023597_2_alg».proof.Proof.LibAxis0Sum
import proofs.«117275_j9715216023597_2_alg».proof.Proof.LibEdgeLinear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.LibEdgeLinear

/-- The dimension record of the body's two products: [8000, 128] × [128, 128], the left columns against the right rows. -/
abbrev dotD : DotDims S8000x128 S128x128 S8000x128 := dot_S8000x128_S128x128_S8000x128_1_0_0_1_n_n

/-- The block of h at (p, q): the layer's entry of the five input blocks. -/
theorem block_h_apply (x0 x1 : Vec Ideal S8000x128 .bf16) (x2 x3 : Vec Ideal S128x128 .bf16) (x4 : Vec Ideal S1x128 .f32) (p : Fin 8000) (q : Fin 128) :
    k0_pay4 x0 x1 x2 x3 x4 (ix2 p q) = preAt x0 x1 x2 x3 x4 p q := by
  unfold k0_pay4 preAt
  simp only [addf_apply, shapeCast_self, broadcastTo_1b_ab_apply]
  exact congrArg₂ (fun a b => a + b + x4 (ix2 (0 : Fin 1) q))
    (LibAffine.coreDot_ix2 dotD (LibPlainDot.contr_rank dotD rfl) (LibPlainDot.contr_size dotD rfl) (LibPlainDot.lhs_row dotD rfl rfl) (LibPlainDot.lhs_col dotD rfl) (LibPlainDot.rhs_row dotD rfl rfl) (LibPlainDot.rhs_col dotD rfl rfl rfl rfl) none x0 x2 p q)
    (LibAffine.coreDot_ix2 dotD (LibPlainDot.contr_rank dotD rfl) (LibPlainDot.contr_size dotD rfl) (LibPlainDot.lhs_row dotD rfl rfl) (LibPlainDot.lhs_col dotD rfl) (LibPlainDot.rhs_row dotD rfl rfl) (LibPlainDot.rhs_col dotD rfl rfl rfl rfl) none x1 x3 p q)

/-- The column total after the body: its old value plus the block's column sum. -/
theorem tot_apply (x0 x1 : Vec Ideal S8000x128 .bf16) (x2 x3 : Vec Ideal S128x128 .bf16) (x4 : Vec Ideal S1x128 .f32) (v20 : Vec Ideal S1x1x128 .f32) (u v : Fin 1) (q : Fin 128) :
    k0_pay6 x0 x1 x2 x3 x4 v20 (ix3 u v q) = v20 (ix3 (0 : Fin 1) v q) + ∑ r : Fin 8000, k0_pay4 x0 x1 x2 x3 x4 (ix2 r q) := by
  unfold k0_pay6
  simp only [shapeCast_ab_1ab_apply, addf_apply, shapeCast_1ab_ab_apply, shapeCast_a_1a_apply]
  exact congrArg (v20 (ix3 (0 : Fin 1) v q) + ·) (LibAxis0Sum.colSum_apply _ _ _ _ _ q)

/-- The total of squares after the body: its old value plus the block's column sum of squares. -/
theorem sq_apply (v17 : FVec Ideal S8000x128 .f32) (v28 : Vec Ideal S1x1x128 .f32) (u v : Fin 1) (q : Fin 128) :
    k0_pay1 v17 v28 (ix3 u v q) = v28 (ix3 (0 : Fin 1) v q) + ∑ r : Fin 8000, v17 (ix2 r q) * v17 (ix2 r q) := by
  unfold k0_pay1
  simp only [shapeCast_ab_1ab_apply, addf_apply, shapeCast_1ab_ab_apply, shapeCast_a_1a_apply]
  exact congrArg (v28 (ix3 (0 : Fin 1) v q) + ·) (LibAxis0Sum.colSum_apply (mulf v17 v17) _ _ _ _ q)

/-- The zero block stored into the column total at the first point of a share. -/
theorem zero6_apply (u v : Fin 1) (q : Fin 128) : k0_pay2 (F := Ideal) (ix3 u v q) = 0 := by
  unfold k0_pay2
  simp only [shapeCast_ab_1ab_apply, broadcast_apply]
  exact Ideal.ofBits_zero_f32

/-- The zero block stored into the total of squares at the first point of a share. -/
theorem zero7_apply (u v : Fin 1) (q : Fin 128) : k0_pay3 (F := Ideal) (ix3 u v q) = 0 := by
  unfold k0_pay3
  simp only [shapeCast_ab_1ab_apply, broadcast_apply]
  exact Ideal.ofBits_zero_f32

end Cert.KernelIdeal.Region0

end
-- ==== Proof.Region0Step.lean ====
/-
  The first call, point by point: after every point the h buffer holds the point's block of h (narrowed to the storage
  format), and the two running totals follow the restart rule — zero plus the block's column sums at the first point of a
  core's share of 50 points, the previous point's total plus the block's column sums elsewhere.
-/
import proofs.«117275_j9715216023597_2_alg».proof.Proof.Gen.KernelIdeal.Frame
import proofs.«117275_j9715216023597_2_alg».proof.Proof.Region0Pieces
import proofs.«117275_j9715216023597_2_alg».proof.Proof.Region0Point
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

theorem fst_of_eq {α β : Type} {x : α × β} {a : α} {b : β} (h : x = (a, b)) : x.1 = a := by rw [h]
theorem snd_fst_of_eq {α β γ : Type} {x : α × β × γ} {a : α} {b : β} {d : γ} (h : x = (a, b, d)) : x.2.1 = b := by rw [h]
theorem snd_snd_of_eq {α β γ : Type} {x : α × β × γ} {a : α} {b : β} {d : γ} (h : x = (a, b, d)) : x.2.2 = d := by rw [h]

variable (V : (c : Dev nD) → (b : Ref sig .tc) → Buf (Elt Ideal) ((c : Thread nD τ).loc b)) (c : Dev nD)

/-- The block of h at point t: the layer of the point's five input blocks. -/
def hblk (t : Fin cfg0.N) : FVec Ideal S8000x128 .f32 := k0_pay4 (iblk0 V c 0 t) (iblk0 V c 1 t) (iblk0 V c 2 t) (iblk0 V c 3 t) (iblk0 V c 4 t)

/-- After every point the h buffer holds the point's block of h. -/
theorem h_at (t : Fin cfg0.N) : (outsAt0 V c t.val t.isLt).1 = k0_pay5 (iblk0 V c 0 t) (iblk0 V c 1 t) (iblk0 V c 2 t) (iblk0 V c 3 t) (iblk0 V c 4 t) := by
  by_cases h0 : t.val % 50 = 0
  · exact (fst_of_eq (outsAt0_A V c t h0)).trans (outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
  · exact (fst_of_eq (outsAt0_B V c t h0)).trans (outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)

/-- At the first point of a share the column total is zero plus the block's column sums. -/
theorem tot_first (t : Fin cfg0.N) (h0 : t.val % 50 = 0) (q : Fin 128) :
    (outsAt0 V c t.val t.isLt).2.1 (ix3 (0 : Fin 1) (0 : Fin 1) q) = 0 + ∑ r : Fin 8000, hblk V c t (ix2 r q) :=
  ((congrFun (snd_fst_of_eq (outsAt0_A V c t h0)) (ix3 (0 : Fin 1) (0 : Fin 1) q)).trans
    (congrFun (outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix3 (0 : Fin 1) (0 : Fin 1) q))).trans
    ((tot_apply (iblk0 V c 0 t) (iblk0 V c 1 t) (iblk0 V c 2 t) (iblk0 V c 3 t) (iblk0 V c 4 t) (k0_pay2 (F := Ideal)) 0 0 q).trans
      (congrArg (fun z : EReal => z + ∑ r : Fin 8000, hblk V c t (ix2 r q)) (zero6_apply 0 0 q)))

/-- Elsewhere it is the previous point's total plus the block's column sums. -/
theorem tot_next (t : Fin cfg0.N) (h0 : ¬t.val % 50 = 0) (q : Fin 128) :
    (outsAt0 V c t.val t.isLt).2.1 (ix3 (0 : Fin 1) (0 : Fin 1) q)
      = (outsAt0 V c (t.val - 1) (Nat.lt_of_le_of_lt (Nat.sub_le _ _) t.isLt)).2.1 (ix3 (0 : Fin 1) (0 : Fin 1) q) + ∑ r : Fin 8000, hblk V c t (ix2 r q) :=
  ((congrFun (snd_fst_of_eq (outsAt0_B V c t h0)) (ix3 (0 : Fin 1) (0 : Fin 1) q)).trans
    (congrFun (outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) (0 : Fin 1) q))).trans
    (tot_apply (iblk0 V c 0 t) (iblk0 V c 1 t) (iblk0 V c 2 t) (iblk0 V c 3 t) (iblk0 V c 4 t) (outsAt0 V c (t.val - 1) (Nat.lt_of_le_of_lt (Nat.sub_le _ _) t.isLt)).2.1 0 0 q)

/-- At the first point of a share the total of squares is zero plus the block's column sums of squares. -/
theorem sq_first (t : Fin cfg0.N) (h0 : t.val % 50 = 0) (q : Fin 128) :
    (outsAt0 V c t.val t.isLt).2.2 (ix3 (0 : Fin 1) (0 : Fin 1) q)
      = 0 + ∑ r : Fin 8000, hblk V c t (ix2 r q) * hblk V c t (ix2 r q) :=
  ((congrFun (snd_snd_of_eq (outsAt0_A V c t h0)) (ix3 (0 : Fin 1) (0 : Fin 1) q)).trans
    (congrFun (outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix3 (0 : Fin 1) (0 : Fin 1) q))).trans
    ((sq_apply (k0_pay4 (iblk0 V c 0 t) (iblk0 V c 1 t) (iblk0 V c 2 t) (iblk0 V c 3 t) (iblk0 V c 4 t)) (k0_pay3 (F := Ideal)) 0 0 q).trans
      (congrArg (fun z : EReal => z + ∑ r : Fin 8000, hblk V c t (ix2 r q) * hblk V c t (ix2 r q)) (zero7_apply 0 0 q)))

/-- Elsewhere it is the previous point's total plus the block's column sums of squares. -/
theorem sq_next (t : Fin cfg0.N) (h0 : ¬t.val % 50 = 0) (q : Fin 128) :
    (outsAt0 V c t.val t.isLt).2.2 (ix3 (0 : Fin 1) (0 : Fin 1) q)
      = (outsAt0 V c (t.val - 1) (Nat.lt_of_le_of_lt (Nat.sub_le _ _) t.isLt)).2.2 (ix3 (0 : Fin 1) (0 : Fin 1) q) + ∑ r : Fin 8000, hblk V c t (ix2 r q) * hblk V c t (ix2 r q) :=
  ((congrFun (snd_snd_of_eq (outsAt0_B V c t h0)) (ix3 (0 : Fin 1) (0 : Fin 1) q)).trans
    (congrFun (outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) (0 : Fin 1) q))).trans
    (sq_apply (k0_pay4 (iblk0 V c 0 t) (iblk0 V c 1 t) (iblk0 V c 2 t) (iblk0 V c 3 t) (iblk0 V c 4 t)) (outsAt0 V c (t.val - 1) (Nat.lt_of_le_of_lt (Nat.sub_le _ _) t.isLt)).2.2 0 0 q)

end Cert.KernelIdeal.Region0

end
-- ==== Proof.LibRestartSum.lean ====
/-
  General lemmas: a running sum that restarts from zero every 50 steps.

  The sequence starts at 0 + g 0; at a step n + 1 that is a multiple of 50 it restarts at 0 + g (n + 1), otherwise it adds
  g (n + 1) to what it held. In a commutative additive monoid (the extended reals are one, also at the infinities) what it
  holds at step n is the sum of g over the steps of n's stretch of 50 up to n; so at the last step of stretch s, n = 50 s + 49,
  it holds the sum of g over the 50 steps 50 s + 0 … 50 s + 49.
  Nothing here mentions a program.
-/
import Mathlib.Algebra.BigOperators.Fin
import Mathlib.Tactic.Ring

namespace Cert.LibRestartSum

open scoped BigOperators

variable {β : Type*} [AddCommMonoid β]

/-- The running sum, restarted at every multiple of 50. -/
def restartSum (g : ℕ → β) : ℕ → β
  | 0 => 0 + g 0
  | n + 1 => if (n + 1) % 50 = 0 then 0 + g (n + 1) else restartSum g n + g (n + 1)

theorem restartSum_zero (g : ℕ → β) : restartSum g 0 = 0 + g 0 := rfl

/-- At a multiple of 50 it restarts. -/
theorem restartSum_restart (g : ℕ → β) (n : ℕ) (h : (n + 1) % 50 = 0) : restartSum g (n + 1) = 0 + g (n + 1) := by
  rw [restartSum, if_pos h]

/-- Elsewhere it adds. -/
theorem restartSum_step (g : ℕ → β) (n : ℕ) (h : ¬(n + 1) % 50 = 0) : restartSum g (n + 1) = restartSum g n + g (n + 1) := by
  rw [restartSum, if_neg h]

/-- At step n it holds the sum over n's stretch up to n. -/
theorem restartSum_eq (g : ℕ → β) (n : ℕ) :
    restartSum g n = ∑ j ∈ Finset.range (n % 50 + 1), g (n - n % 50 + j) := by
  induction n with
  | zero => simp [restartSum]
  | succ n ih =>
    unfold restartSum
    split
    · rename_i h0
      rw [h0, zero_add, Finset.sum_range_one, Nat.sub_zero, Nat.add_zero]
    · rename_i h0
      have e1 : (n + 1) % 50 = n % 50 + 1 := by omega
      have e2 : n + 1 - (n % 50 + 1) = n - n % 50 := by omega
      rw [ih, e1, e2, Finset.sum_range_succ (n := n % 50 + 1)]
      congr 2
      omega

/-- At the last step of stretch s it holds the sum over the stretch. -/
theorem restartSum_last (g : ℕ → β) (s : ℕ) :
    restartSum g (50 * s + 49) = ∑ j : Fin 50, g (50 * s + j.val) := by
  rw [restartSum_eq, show (50 * s + 49) % 50 + 1 = 50 by omega, show 50 * s + 49 - (50 * s + 49) % 50 = 50 * s by omega]
  exact Finset.sum_range fun j => g (50 * s + j)

end Cert.LibRestartSum
-- ==== Proof.Region0Value.lean ====
/-
  The first call as whole arrays, whatever the five input arrays held when it was entered.
  * The h array ends at the layer of the five arrays: entry (e, q) is the layer's entry of row e. Block t of the 100 blocks
    of 8000 rows is written by point t, and row e lies in block e / 8000.
  * The column totals end, for core a = 0, 1, at the sum over the core's 50 blocks of the block's column sums: the running
    total follows the restart rule point by point, and is written back after the last point of the core's share.
  * The totals of squares likewise.
  The sums are written over one function on the naturals, g q m = h (m, q) for m < 800000, so that a block's column sum is
  the sum of g over the block's 8000 consecutive rows.
-/
import proofs.«117275_j9715216023597_2_alg».proof.Proof.Gen.KernelIdeal.Frame
import proofs.«117275_j9715216023597_2_alg».proof.Proof.Region0Point
import proofs.«117275_j9715216023597_2_alg».proof.Proof.Region0Step
import proofs.«117275_j9715216023597_2_alg».proof.Proof.LibEdgeLinear
import proofs.«117275_j9715216023597_2_alg».proof.Proof.LibRestartSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.LibEdgeLinear Cert.LibRestartSum

variable (V : (c : Dev nD) → (b : Ref sig .tc) → Buf (Elt Ideal) ((c : Thread nD τ).loc b)) (c : Dev nD)

/-- Entry (e, q) of h: the layer of the five arrays as the call finds them. -/
def hAt (e : Fin 800000) (q : Fin 128) : EReal := preAt (V c main_v11 : S800000x128.Idx → EReal) (V c main_v18 : S800000x128.Idx → EReal) (V c main_v21 : S128x128.Idx → EReal) (V c main_v24 : S128x128.Idx → EReal) (V c main_v25 : S1x128.Idx → EReal) e q

/-- Column q of h along the naturals (zero past the last row). -/
def gcol (q : Fin 128) (m : ℕ) : EReal := if h : m < 800000 then hAt V c ⟨m, h⟩ q else 0

/-- Where each window's block sits at point t = 50 a + i: the feature and h blocks are block t of the rows, the weights and
    the bias are read whole, the totals' block is core a's. Decided over the grid. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = t.val / 50 ∧ win0_6.index t (1 : Fin 3) = 0 ∧ win0_6.index t (2 : Fin 3) = 0)
    ∧ (win0_7.index t (0 : Fin 3) = t.val / 50 ∧ win0_7.index t (1 : Fin 3) = 0 ∧ win0_7.index t (2 : Fin 3) = 0) :=
  (by decide +kernel : ∀ t : Fin grid0.N, _)

theorem read_xi (t : Fin cfg0.N) (p : Fin 8000) (k : Fin 128) (e : Fin 800000) (he : e.val = t.val * 8000 + p.val) :
    iblk0 V c 0 t (ix2 p k) = (V c main_v11 : S800000x128.Idx → EReal) (ix2 e k) := by
  show V c main_v11 (((cfg0.win 0).blk t).view.emb (ix2 p k)) = V c main_v11 (ix2 e k)
  refine congrArg _ (funext fun a => Fin.ext ?_)
  obtain ⟨⟨e0, e1⟩, -⟩ := index_facts t
  match a with
  | ⟨0, _⟩ => show win0_0.index t (0 : Fin 2) * 8000 + 1 * p.val = e.val; omega
  | ⟨1, _⟩ => show win0_0.index t (1 : Fin 2) * 128 + 1 * k.val = k.val; omega

theorem read_xj (t : Fin cfg0.N) (p : Fin 8000) (k : Fin 128) (e : Fin 800000) (he : e.val = t.val * 8000 + p.val) :
    iblk0 V c 1 t (ix2 p k) = (V c main_v18 : S800000x128.Idx → EReal) (ix2 e k) := by
  show V c main_v18 (((cfg0.win 1).blk t).view.emb (ix2 p k)) = V c main_v18 (ix2 e k)
  refine congrArg _ (funext fun a => Fin.ext ?_)
  obtain ⟨-, ⟨e0, e1⟩, -⟩ := index_facts t
  match a with
  | ⟨0, _⟩ => show win0_1.index t (0 : Fin 2) * 8000 + 1 * p.val = e.val; omega
  | ⟨1, _⟩ => show win0_1.index t (1 : Fin 2) * 128 + 1 * k.val = k.val; omega

theorem read_wi (t : Fin cfg0.N) (k q : Fin 128) :
    iblk0 V c 2 t (ix2 k q) = (V c main_v21 : S128x128.Idx → EReal) (ix2 k q) := by
  show V c main_v21 (((cfg0.win 2).blk t).view.emb (ix2 k q)) = V c main_v21 (ix2 k q)
  refine congrArg _ (funext fun a => Fin.ext ?_)
  obtain ⟨-, -, ⟨e0, e1⟩, -⟩ := index_facts t
  match a with
  | ⟨0, _⟩ => show win0_2.index t (0 : Fin 2) * 128 + 1 * k.val = k.val; omega
  | ⟨1, _⟩ => show win0_2.index t (1 : Fin 2) * 128 + 1 * q.val = q.val; omega

theorem read_wj (t : Fin cfg0.N) (k q : Fin 128) :
    iblk0 V c 3 t (ix2 k q) = (V c main_v24 : S128x128.Idx → EReal) (ix2 k q) := by
  show V c main_v24 (((cfg0.win 3).blk t).view.emb (ix2 k q)) = V c main_v24 (ix2 k q)
  refine congrArg _ (funext fun a => Fin.ext ?_)
  obtain ⟨-, -, -, ⟨e0, e1⟩, -⟩ := index_facts t
  match a with
  | ⟨0, _⟩ => show win0_3.index t (0 : Fin 2) * 128 + 1 * k.val = k.val; omega
  | ⟨1, _⟩ => show win0_3.index t (1 : Fin 2) * 128 + 1 * q.val = q.val; omega

theorem read_b (t : Fin cfg0.N) (q : Fin 128) :
    iblk0 V c 4 t (ix2 (0 : Fin 1) q) = (V c main_v25 : S1x128.Idx → EReal) (ix2 (0 : Fin 1) q) := by
  show V c main_v25 (((cfg0.win 4).blk t).view.emb (ix2 (0 : Fin 1) q)) = V c main_v25 (ix2 (0 : Fin 1) q)
  refine congrArg _ (funext fun a => Fin.ext ?_)
  obtain ⟨-, -, -, -, ⟨e0, e1⟩, -⟩ := index_facts t
  match a with
  | ⟨0, _⟩ => show win0_4.index t (0 : Fin 2) * 1 + 1 * 0 = 0; omega
  | ⟨1, _⟩ => show win0_4.index t (1 : Fin 2) * 128 + 1 * q.val = q.val; omega

/-- Row p of point t's block of h is row 8000 t + p of h. -/
theorem hblk_apply (t : Fin cfg0.N) (p : Fin 8000) (q : Fin 128) (e : Fin 800000) (he : e.val = t.val * 8000 + p.val) :
    hblk V c t (ix2 p q) = hAt V c e q := by
  unfold hblk hAt
  refine (block_h_apply (iblk0 V c 0 t) (iblk0 V c 1 t) (iblk0 V c 2 t) (iblk0 V c 3 t) (iblk0 V c 4 t) p q).trans ?_
  exact preAt_congr _ _ _ _ _ _ _ _ _ _ p e q (fun k => read_xi V c t p k e he) (fun k => read_xj V c t p k e he)
    (fun k => read_wi V c t k q) (fun k => read_wj V c t k q) (read_b V c t q)

/-- A block's column sum is the sum of g over the block's rows. -/
theorem blk_sum (t : Fin cfg0.N) (q : Fin 128) :
    ∑ r : Fin 8000, hblk V c t (ix2 r q) = ∑ r : Fin 8000, gcol V c q (t.val * 8000 + r.val) := by
  have hN : cfg0.N = 100 := N_0
  have ht : t.val < 100 := hN ▸ t.isLt
  refine Finset.sum_congr rfl fun r _ => ?_
  have hlt : t.val * 8000 + r.val < 800000 := by have := r.isLt; omega
  unfold gcol
  rw [dif_pos hlt]
  exact hblk_apply V c t r q ⟨_, hlt⟩ rfl

/-- The same for the squares. -/
theorem blk_sq (t : Fin cfg0.N) (q : Fin 128) :
    ∑ r : Fin 8000, hblk V c t (ix2 r q) * hblk V c t (ix2 r q)
      = ∑ r : Fin 8000, gcol V c q (t.val * 8000 + r.val) * gcol V c q (t.val * 8000 + r.val) := by
  have hN : cfg0.N = 100 := N_0
  have ht : t.val < 100 := hN ▸ t.isLt
  refine Finset.sum_congr rfl fun r _ => ?_
  have hlt : t.val * 8000 + r.val < 800000 := by have := r.isLt; omega
  unfold gcol
  rw [dif_pos hlt, hblk_apply V c t r q ⟨_, hlt⟩ rfl]

/-- Reading the narrowed block is reading the block: a change of float format is the identity. -/
theorem narrow_apply (x0 x1 : Vec Ideal S8000x128 .bf16) (x2 x3 : Vec Ideal S128x128 .bf16) (x4 : Vec Ideal S1x128 .f32)
    (j : S8000x128.Idx) : k0_pay5 x0 x1 x2 x3 x4 j = k0_pay4 x0 x1 x2 x3 x4 j := rfl

/-- The column total after point n follows the restart rule over the blocks' column sums. -/
theorem tot_inv (q : Fin 128) : ∀ (n : ℕ) (h : n < cfg0.N),
    (outsAt0 V c n h).2.1 (ix3 (0 : Fin 1) (0 : Fin 1) q)
      = restartSum (fun t => ∑ r : Fin 8000, gcol V c q (t * 8000 + r.val)) n
  | 0, h => (tot_first V c ⟨0, h⟩ rfl q).trans (congrArg (0 + ·) (blk_sum V c ⟨0, h⟩ q))
  | n + 1, h => by
    by_cases h0 : (n + 1) % 50 = 0
    · rw [restartSum_restart _ n h0]
      exact (tot_first V c ⟨n + 1, h⟩ h0 q).trans (congrArg (0 + ·) (blk_sum V c ⟨n + 1, h⟩ q))
    · rw [restartSum_step _ n h0, ← tot_inv q n (Nat.lt_of_succ_lt h)]
      exact (tot_next V c ⟨n + 1, h⟩ h0 q).trans (congrArg (_ + ·) (blk_sum V c ⟨n + 1, h⟩ q))

/-- The total of squares after point n follows the restart rule over the blocks' column sums of squares. -/
theorem sq_inv (q : Fin 128) : ∀ (n : ℕ) (h : n < cfg0.N),
    (outsAt0 V c n h).2.2 (ix3 (0 : Fin 1) (0 : Fin 1) q)
      = restartSum (fun t => ∑ r : Fin 8000, gcol V c q (t * 8000 + r.val) * gcol V c q (t * 8000 + r.val)) n
  | 0, h => (sq_first V c ⟨0, h⟩ rfl q).trans (congrArg (0 + ·) (blk_sq V c ⟨0, h⟩ q))
  | n + 1, h => by
    by_cases h0 : (n + 1) % 50 = 0
    · rw [restartSum_restart _ n h0]
      exact (sq_first V c ⟨n + 1, h⟩ h0 q).trans (congrArg (0 + ·) (blk_sq V c ⟨n + 1, h⟩ q))
    · rw [restartSum_step _ n h0, ← sq_inv q n (Nat.lt_of_succ_lt h)]
      exact (sq_next V c ⟨n + 1, h⟩ h0 q).trans (congrArg (_ + ·) (blk_sq V c ⟨n + 1, h⟩ q))

/-! ## The h array -/

/-- The whole h array. -/
def hArr : S800000x128.Idx → EReal := fun i => hAt V c (i 0) (i 1)

/-- What point t writes back is block t of h. -/
theorem flushed_h (t : Fin cfg0.N) :
    (dat0 V c).flushed 5 t = ((cfg0.win 5).blk t).view.read (Elt Ideal) (hArr V c) := by
  show (cfg0.win 5).cut (grid0.coords t) ((dat0 V c).after 5 t) = _
  rw [after0_5, h_at]
  funext j
  obtain ⟨p, q, rfl⟩ : ∃ (p : Fin 8000) (q : Fin 128), j = ix2 p q := ⟨j 0, j 1, eq_ix2 j⟩
  obtain ⟨-, -, -, -, -, ⟨e0, e1⟩, -⟩ := index_facts t
  have o0 : ((((cfg0.win 5).blk t).view.emb (ix2 p q)) 0).val = t.val * 8000 + p.val := by
    show win0_5.index t (0 : Fin 2) * 8000 + 1 * p.val = _; omega
  have o1 : (((cfg0.win 5).blk t).view.emb (ix2 p q)) 1 = q :=
    Fin.ext (by show win0_5.index t (1 : Fin 2) * 128 + 1 * q.val = _; omega)
  show k0_pay5 (iblk0 V c 0 t) (iblk0 V c 1 t) (iblk0 V c 2 t) (iblk0 V c 3 t) (iblk0 V c 4 t) (ix2 p q) = hArr V c (((cfg0.win 5).blk t).view.emb (ix2 p q))
  unfold hArr
  rw [o1]
  exact (narrow_apply (iblk0 V c 0 t) (iblk0 V c 1 t) (iblk0 V c 2 t) (iblk0 V c 3 t) (iblk0 V c 4 t) (ix2 p q)).trans (hblk_apply V c t p q _ o0)

theorem mem_blk_h (t : Fin cfg0.N) (i : S800000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v28_0).slice (win0_5.rect t)).set ↔ _
  rw [View.set_slice_whole, Rect.mem_set_unit]
  exact Iff.rfl

/-- Row e lies in the block of the point e / 8000. -/
theorem cover_h (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have hN : cfg0.N = 100 := N_0
  let t : Fin cfg0.N := ⟨(i 0).val / 8000, by rw [hN]; omega⟩
  refine ⟨t, flush0_5 t, ?_⟩
  rw [mem_blk_h]
  obtain ⟨-, -, -, -, -, ⟨e0, e1⟩, -⟩ := index_facts t
  have ht : t.val = (i 0).val / 8000 := rfl
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- The h array after the call. -/
theorem final_h : (dat0 V c).arrAt 5 cfg0.N = hArr V c :=
  (dat0 V c).arrAt_eq_of_cover 5 _ (fun t _ => flushed_h V c t) (cover_h)

/-! ## The column totals -/

/-- The column totals: for core a, column q, the sum over the core's 50 blocks of the block's column sums. -/
def totArr : S2x1x128.Idx → EReal :=
  fun i => ∑ j : Fin 50, ∑ r : Fin 8000, gcol V c (i 2) ((50 * (i 0).val + j.val) * 8000 + r.val)

/-- What the last point of a core's share writes back is the core's row of the column totals. -/
theorem flushed_tot (t : Fin cfg0.N) (hf : (cfg0.win 6).flush t = true) :
    (dat0 V c).flushed 6 t = ((cfg0.win 6).blk t).view.read (Elt Ideal) (totArr V c) := by
  have h49 : t.val % 50 = 49 := (flush0_6 t).mp hf
  show (cfg0.win 6).cut (grid0.coords t) ((dat0 V c).after 6 t) = _
  rw [after0_6]
  funext y
  obtain ⟨u, v, q, rfl⟩ : ∃ (u v : Fin 1) (q : Fin 128), y = ix3 u v q := ⟨y 0, y 1, y 2, eq_ix3 y⟩
  obtain rfl : u = 0 := Subsingleton.elim _ _
  obtain rfl : v = 0 := Subsingleton.elim _ _
  obtain ⟨-, -, -, -, -, -, ⟨e0, e1, e2⟩, -⟩ := index_facts t
  have o0 : ((((cfg0.win 6).blk t).view.emb (ix3 (0 : Fin 1) (0 : Fin 1) q)) 0).val = t.val / 50 := by
    show win0_6.index t (0 : Fin 3) * 1 + 1 * 0 = _; omega
  have o2 : (((cfg0.win 6).blk t).view.emb (ix3 (0 : Fin 1) (0 : Fin 1) q)) 2 = q :=
    Fin.ext (by show win0_6.index t (2 : Fin 3) * 128 + 1 * q.val = _; omega)
  show (outsAt0 V c t.val t.isLt).2.1 (ix3 (0 : Fin 1) (0 : Fin 1) q) = totArr V c (((cfg0.win 6).blk t).view.emb (ix3 (0 : Fin 1) (0 : Fin 1) q))
  have key := restartSum_last (fun n => ∑ r : Fin 8000, gcol V c q (n * 8000 + r.val)) (t.val / 50)
  rw [show 50 * (t.val / 50) + 49 = t.val by omega] at key
  rw [tot_inv V c q t.val t.isLt, key]
  unfold totArr
  rw [o2, o0]

theorem mem_blk_tot (t : Fin cfg0.N) (i : S2x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v28_1).slice (win0_6.rect t)).set ↔ _
  rw [View.set_slice_whole, Rect.mem_set_unit]
  exact Iff.rfl

/-- Core a's row is written by the last point of the core's share, 50 a + 49. -/
theorem cover_tot (i : S2x1x128.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 128 := (i 2).isLt
  have hN : cfg0.N = 100 := N_0
  let t : Fin cfg0.N := ⟨50 * (i 0).val + 49, by rw [hN]; omega⟩
  have ht : t.val = 50 * (i 0).val + 49 := rfl
  refine ⟨t, (flush0_6 t).mpr (by omega), ?_⟩
  rw [mem_blk_tot]
  obtain ⟨-, -, -, -, -, -, ⟨e0, e1, e2⟩, -⟩ := index_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 128 ≤ (i 2).val ∧ (i 2).val < win0_6.index t (2 : Fin 3) * 128 + 128; omega

/-- The column totals after the call. -/
theorem final_tot : (dat0 V c).arrAt 6 cfg0.N = totArr V c :=
  (dat0 V c).arrAt_eq_of_cover 6 _ (flushed_tot V c) (cover_tot)

/-! ## The totals of squares -/

/-- The totals of squares: for core a, column q, the sum over the core's 50 blocks of the block's column sums of squares. -/
def sqArr : S2x1x128.Idx → EReal :=
  fun i => ∑ j : Fin 50, ∑ r : Fin 8000,
    gcol V c (i 2) ((50 * (i 0).val + j.val) * 8000 + r.val) * gcol V c (i 2) ((50 * (i 0).val + j.val) * 8000 + r.val)

theorem flushed_sq (t : Fin cfg0.N) (hf : (cfg0.win 7).flush t = true) :
    (dat0 V c).flushed 7 t = ((cfg0.win 7).blk t).view.read (Elt Ideal) (sqArr V c) := by
  have h49 : t.val % 50 = 49 := (flush0_7 t).mp hf
  show (cfg0.win 7).cut (grid0.coords t) ((dat0 V c).after 7 t) = _
  rw [after0_7]
  funext y
  obtain ⟨u, v, q, rfl⟩ : ∃ (u v : Fin 1) (q : Fin 128), y = ix3 u v q := ⟨y 0, y 1, y 2, eq_ix3 y⟩
  obtain rfl : u = 0 := Subsingleton.elim _ _
  obtain rfl : v = 0 := Subsingleton.elim _ _
  obtain ⟨-, -, -, -, -, -, -, ⟨e0, e1, e2⟩⟩ := index_facts t
  have o0 : ((((cfg0.win 7).blk t).view.emb (ix3 (0 : Fin 1) (0 : Fin 1) q)) 0).val = t.val / 50 := by
    show win0_7.index t (0 : Fin 3) * 1 + 1 * 0 = _; omega
  have o2 : (((cfg0.win 7).blk t).view.emb (ix3 (0 : Fin 1) (0 : Fin 1) q)) 2 = q :=
    Fin.ext (by show win0_7.index t (2 : Fin 3) * 128 + 1 * q.val = _; omega)
  show (outsAt0 V c t.val t.isLt).2.2 (ix3 (0 : Fin 1) (0 : Fin 1) q) = sqArr V c (((cfg0.win 7).blk t).view.emb (ix3 (0 : Fin 1) (0 : Fin 1) q))
  have key := restartSum_last (fun n => ∑ r : Fin 8000, gcol V c q (n * 8000 + r.val) * gcol V c q (n * 8000 + r.val)) (t.val / 50)
  rw [show 50 * (t.val / 50) + 49 = t.val by omega] at key
  rw [sq_inv V c q t.val t.isLt, key]
  unfold sqArr
  rw [o2, o0]

theorem mem_blk_sq (t : Fin cfg0.N) (i : S2x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v28_2).slice (win0_7.rect t)).set ↔ _
  rw [View.set_slice_whole, Rect.mem_set_unit]
  exact Iff.rfl

theorem cover_sq (i : S2x1x128.Idx) : ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 128 := (i 2).isLt
  have hN : cfg0.N = 100 := N_0
  let t : Fin cfg0.N := ⟨50 * (i 0).val + 49, by rw [hN]; omega⟩
  have ht : t.val = 50 * (i 0).val + 49 := rfl
  refine ⟨t, (flush0_7 t).mpr (by omega), ?_⟩
  rw [mem_blk_sq]
  obtain ⟨-, -, -, -, -, -, -, ⟨e0, e1, e2⟩⟩ := index_facts t
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

/-- The totals of squares after the call. -/
theorem final_sq : (dat0 V c).arrAt 7 cfg0.N = sqArr V c :=
  (dat0 V c).arrAt_eq_of_cover 7 _ (flushed_sq V c) (cover_sq)

end Cert.KernelIdeal.Region0

end
-- ==== Proof.Entry1.lean ====
/-
  What the second call finds when it is entered. The h array is what the first call left. The scale row and the shift row
  are computed by the host from the two arrays of totals: with s the sum of the two cores' column totals, q the sum of the
  two cores' totals of squares, n = 800000, the mean is s / n, the variance max (q / n − mean · mean) 0, the scale
  gamma · (variance + ε)^(-1/2) and the shift beta − mean · scale, column by column.
-/
import proofs.«117275_j9715216023597_2_alg».proof.Proof.Gen.KernelIdeal.Frame
import proofs.«117275_j9715216023597_2_alg».proof.Proof.Entry0
import proofs.«117275_j9715216023597_2_alg».proof.Proof.Region0Value
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Entry1

open Idealize.ShloMosaic Idealize.ShloMosaic.TcCoe Idealize.SL.Sem Idealize.ShloMosaic.ValueIdx
open Idealize.ShloMosaic.Pipeline (Dat)
open Cert.KernelIdeal Cert.KernelIdeal.Gen Idealize.ShloMosaic.StableHlo

/-- A rank-0 array spread over any shape reads its one entry everywhere. -/
theorem spread_apply {α : Type} {s : Shape} (h : S_.BroadcastsInDim s (![] : Fin 0 → Fin s.rank)) (v : S_.Idx → α) (i : s.Idx) :
    broadcastInDim s ![] h v i = v ix0 :=
  broadcastInDim_apply _ h v i ix0 (fun a => a.elim0)

theorem hostRsqrt_apply {s : Shape} (x : FVec Ideal s .f32) (i : s.Idx) : Host.rsqrt x i = Ideal.rsqrt (x i) := rfl
theorem hostDivf_apply {s : Shape} (x y : FVec Ideal s .f32) (i : s.Idx) : Host.divf x y i = Ideal.div (x i) (y i) := rfl

/-- Core a's row of a [2, 1, 128] array, as an embedding of the two cores into the array's indices at column q. -/
def coreEmb (q : Fin 128) : Fin 2 ↪ S2x1x128.Idx :=
  ⟨fun a => ix3 a (0 : Fin 1) q, fun a a' h => by have := congrFun h 0; exact this⟩

/-- The host's sum over the two leading axes of a [2, 1, 128] array, at column q: the initial value plus the two cores' entries. -/
theorem sum_cores (x : FVec Ideal S2x1x128 .f32) (init : FVec Ideal S_ .f32) (q : Fin 128) :
    Host.reduceAdd (F := Ideal) x init reducesTo_S2x1x128_S128_d0_1 h_S_ (ix1 q)
      = init ix0 + (x (ix3 (0 : Fin 2) (0 : Fin 1) q) + x (ix3 (1 : Fin 2) (0 : Fin 1) q)) := by
  show Ideal.hostReduceAdd reducesTo_S2x1x128_S128_d0_1 x (init (Shape.Idx.first h_S_)) (ix1 q) = _
  unfold Ideal.hostReduceAdd
  rw [show Shape.Idx.first h_S_ = ix0 from eq_ix0 _]
  have hf : Finset.univ.filter (fun i : S2x1x128.Idx => reducesTo_S2x1x128_S128_d0_1.drop i = ix1 q) = Finset.univ.map (coreEmb q) := by
    ext i
    simp only [Finset.mem_filter, Finset.mem_univ, true_and, Finset.mem_map, coreEmb, Function.Embedding.coeFn_mk]
    constructor
    · intro hd
      refine ⟨i 0, ?_⟩
      funext a
      match a with
      | ⟨0, _⟩ => rfl
      | ⟨1, _⟩ => exact Subsingleton.elim (α := Fin 1) _ _
      | ⟨2, _⟩ => exact (congrFun hd 0).symm
    · rintro ⟨a, rfl⟩
      funext b
      match b with
      | ⟨0, _⟩ => rfl
  rw [hf, Finset.sum_map, Fin.sum_univ_two]
  rfl

variable (m : (ℓ : Loc nD τ sig) → Buf (Elt Ideal) ℓ) (ρ : Dev nD → PrngReg) (c : Dev nD)

/-- The h array the second call reads is what the first call left. -/
theorem h_in : (V3 m ρ c main_v28_0 : S800000x128.Idx → EReal) = Region0.hArr (V1 m ρ) c := by
  show StableHlo.after hostOps1 (W2 m ρ c) (Proc.devRef .tc main_v28_0) = _
  after_results_simp
  exact (W2_arr m ρ c 5).trans (Region0.final_h (V1 m ρ) c)

/-- A column statistic as the host reads it: the sum over the two cores from the zero word, laid as a row. -/
def stat (t : FVec Ideal S2x1x128 .f32) : S1x128.Idx → EReal :=
  shapeCast S1x128 (Host.reduceAdd (F := Ideal) t (constant S_ .f32 0x00000000#32) reducesTo_S2x1x128_S128_d0_1 h_S_) shapeCasts_S128_S1x128

theorem stat_apply (t : FVec Ideal S2x1x128 .f32) (q : Fin 128) :
    stat t (ix2 (0 : Fin 1) q) = t (ix3 (0 : Fin 2) (0 : Fin 1) q) + t (ix3 (1 : Fin 2) (0 : Fin 1) q) := by
  unfold stat
  rw [shapeCast_a_1a_apply, sum_cores, constant_apply, Ideal.ofBits_zero_f32, zero_add]

/-- gamma (q) and beta (q). -/
def gainAt (q : Fin 128) : EReal := m ((c : Thread nD τ).loc main_arg4) (ix1 q)
def offsetAt (q : Fin 128) : EReal := m ((c : Thread nD τ).loc main_arg5) (ix1 q)

/-- The column totals the host reads are what the first call left. -/
theorem tot_in : W2 m ρ c (Proc.devRef .tc main_v28_1) = Region0.totArr (V1 m ρ) c :=
  (W2_arr m ρ c 6).trans (Region0.final_tot (V1 m ρ) c)

/-- The totals of squares the host reads are what the first call left. -/
theorem sq_in : W2 m ρ c (Proc.devRef .tc main_v28_2) = Region0.sqArr (V1 m ρ) c :=
  (W2_arr m ρ c 7).trans (Region0.final_sq (V1 m ρ) c)

/-- The gain row is untouched by the first call. -/
theorem gain_in (q : Fin 128) : W2 m ρ c (Proc.devRef .tc main_v26) (ix2 (0 : Fin 1) q) = gainAt m c q := by
  rw [W2_of_ne m ρ c main_v26 (by decide)]
  exact Entry0.gain_row m ρ c q

/-- The offset row is untouched by the first call. -/
theorem offset_in (q : Fin 128) : W2 m ρ c (Proc.devRef .tc main_v27) (ix2 (0 : Fin 1) q) = offsetAt m c q := by
  rw [W2_of_ne m ρ c main_v27 (by decide)]
  exact Entry0.offset_row m ρ c q

/-- The scale row: gamma times the inverse root of the clipped variance plus ε. -/
theorem scale_apply (q : Fin 128) :
    (V3 m ρ c main_v44 : S1x128.Idx → EReal) (ix2 (0 : Fin 1) q) = gainAt m c q * Ideal.rsqrt (max (Ideal.div (stat (Region0.sqArr (V1 m ρ) c) (ix2 (0 : Fin 1) q)) (Ideal.ofBits .f32 0x49435000#32) - Ideal.div (stat (Region0.totArr (V1 m ρ) c) (ix2 (0 : Fin 1) q)) (Ideal.ofBits .f32 0x49435000#32) * Ideal.div (stat (Region0.totArr (V1 m ρ) c) (ix2 (0 : Fin 1) q)) (Ideal.ofBits .f32 0x49435000#32)) (Ideal.ofBits .f32 0x00000000#32) + (Ideal.ofBits .f32 0x3727C5AC#32)) := by
  show StableHlo.after hostOps1 (W2 m ρ c) (Proc.devRef .tc main_v44) (ix2 (0 : Fin 1) q) = _
  after_results_simp
  rw [tot_in, sq_in]
  show (fun g : EReal => g * Ideal.rsqrt (max (Ideal.div (stat (Region0.sqArr (V1 m ρ) c) (ix2 (0 : Fin 1) q)) (Ideal.ofBits .f32 0x49435000#32) - Ideal.div (stat (Region0.totArr (V1 m ρ) c) (ix2 (0 : Fin 1) q)) (Ideal.ofBits .f32 0x49435000#32) * Ideal.div (stat (Region0.totArr (V1 m ρ) c) (ix2 (0 : Fin 1) q)) (Ideal.ofBits .f32 0x49435000#32)) (Ideal.ofBits .f32 0x00000000#32) + (Ideal.ofBits .f32 0x3727C5AC#32))) (W2 m ρ c (Proc.devRef .tc main_v26) (ix2 (0 : Fin 1) q)) = _
  rw [gain_in]

/-- The shift row: beta minus the mean times the scale. -/
theorem shift_apply (q : Fin 128) :
    (V3 m ρ c main_v46 : S1x128.Idx → EReal) (ix2 (0 : Fin 1) q)
      = offsetAt m c q - Ideal.div (stat (Region0.totArr (V1 m ρ) c) (ix2 (0 : Fin 1) q)) (Ideal.ofBits .f32 0x49435000#32) * (gainAt m c q * Ideal.rsqrt (max (Ideal.div (stat (Region0.sqArr (V1 m ρ) c) (ix2 (0 : Fin 1) q)) (Ideal.ofBits .f32 0x49435000#32) - Ideal.div (stat (Region0.totArr (V1 m ρ) c) (ix2 (0 : Fin 1) q)) (Ideal.ofBits .f32 0x49435000#32) * Ideal.div (stat (Region0.totArr (V1 m ρ) c) (ix2 (0 : Fin 1) q)) (Ideal.ofBits .f32 0x49435000#32)) (Ideal.ofBits .f32 0x00000000#32) + (Ideal.ofBits .f32 0x3727C5AC#32))) := by
  show StableHlo.after hostOps1 (W2 m ρ c) (Proc.devRef .tc main_v46) (ix2 (0 : Fin 1) q) = _
  after_results_simp
  rw [tot_in, sq_in]
  show (fun g b : EReal => b - Ideal.div (stat (Region0.totArr (V1 m ρ) c) (ix2 (0 : Fin 1) q)) (Ideal.ofBits .f32 0x49435000#32) * (g * Ideal.rsqrt (max (Ideal.div (stat (Region0.sqArr (V1 m ρ) c) (ix2 (0 : Fin 1) q)) (Ideal.ofBits .f32 0x49435000#32) - Ideal.div (stat (Region0.totArr (V1 m ρ) c) (ix2 (0 : Fin 1) q)) (Ideal.ofBits .f32 0x49435000#32) * Ideal.div (stat (Region0.totArr (V1 m ρ) c) (ix2 (0 : Fin 1) q)) (Ideal.ofBits .f32 0x49435000#32)) (Ideal.ofBits .f32 0x00000000#32) + (Ideal.ofBits .f32 0x3727C5AC#32))))
    (W2 m ρ c (Proc.devRef .tc main_v26) (ix2 (0 : Fin 1) q)) (W2 m ρ c (Proc.devRef .tc main_v27) (ix2 (0 : Fin 1) q)) = _
  rw [gain_in, offset_in]

end Cert.KernelIdeal.Entry1

end
-- ==== Proof.Region1.lean ====
/-
  The second call: every block of 8000 rows of h is scaled by the scale row, shifted by the shift row and clipped below at
  zero, so the whole result array is h · scale + shift clipped at zero, index by index, whatever the three input arrays
  held when the call was entered. The 100 blocks tile the 800000 rows: row r lies in block r / 8000.
-/
import proofs.«117275_j9715216023597_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- One block's result at row p, column q: the block's entry times the scale row's entry q plus the shift row's, clipped. -/
theorem block_apply (x0 : Vec Ideal S8000x128 .bf16) (x1 x2 : Vec Ideal S1x128 .f32) (p : Fin 8000) (q : Fin 128) :
    k1_pay1 x0 x1 x2 (ix2 p q) = max (x0 (ix2 p q) * x1 (ix2 (0 : Fin 1) q) + x2 (ix2 (0 : Fin 1) q)) 0 := by
  unfold k1_pay1
  simp only [maximumf_apply, addf_apply, mulf_apply, extf_apply, shapeCast_self, broadcastTo_1b_ab_apply, broadcast_apply]
  exact congrArg (max _) Ideal.ofBits_zero_f32

variable (V : (c : Dev nD) → (b : Ref sig .tc) → Buf (Elt Ideal) ((c : Thread nD τ).loc b))

/-- The whole result: h · scale + shift clipped below at zero, the scale and shift rows read at the column. -/
def scaleShiftClip (h : S800000x128.Idx → EReal) (s t : S1x128.Idx → EReal) : S800000x128.Idx → EReal :=
  fun i => max (h i * s (ix2 (0 : Fin 1) (i 1)) + t (ix2 (0 : Fin 1) (i 1))) 0

/-- Where each window's block sits at point t: h's and the result's block is block t of the rows, the scale and the shift
    rows are read whole. Decided over the grid. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p, column q of h's block at point t is row 8000 t + p of h. -/
theorem read_h (c : Dev nD) (t : Fin cfg1.N) (p : Fin 8000) (q : Fin 128) (i : S800000x128.Idx)
    (h0 : (i 0).val = t.val * 8000 + p.val) (h1 : (i 1).val = q.val) :
    iblk1 V c 0 t (ix2 p q) = V c main_v28_0 i := by
  show V c main_v28_0 (((cfg1.win 0).blk t).view.emb (ix2 p q)) = V c main_v28_0 i
  refine congrArg _ (funext fun a => Fin.ext ?_)
  obtain ⟨e0, e1, -⟩ := index_facts t
  match a with
  | ⟨0, _⟩ => show win1_0.index t (0 : Fin 2) * 8000 + 1 * p.val = (i 0).val; omega
  | ⟨1, _⟩ => show win1_0.index t (1 : Fin 2) * 128 + 1 * q.val = (i 1).val; omega

/-- The scale row's block is the scale row. -/
theorem read_scale (c : Dev nD) (t : Fin cfg1.N) (q : Fin 128) :
    iblk1 V c 1 t (ix2 (0 : Fin 1) q) = V c main_v44 (ix2 (0 : Fin 1) q) := by
  show V c main_v44 (((cfg1.win 1).blk t).view.emb (ix2 (0 : Fin 1) q)) = V c main_v44 (ix2 (0 : Fin 1) q)
  refine congrArg _ (funext fun a => Fin.ext ?_)
  obtain ⟨-, -, e2, e3, -⟩ := index_facts t
  match a with
  | ⟨0, _⟩ => show win1_1.index t (0 : Fin 2) * 1 + 1 * 0 = 0; omega
  | ⟨1, _⟩ => show win1_1.index t (1 : Fin 2) * 128 + 1 * q.val = q.val; omega

/-- The shift row's block is the shift row. -/
theorem read_shift (c : Dev nD) (t : Fin cfg1.N) (q : Fin 128) :
    iblk1 V c 2 t (ix2 (0 : Fin 1) q) = V c main_v46 (ix2 (0 : Fin 1) q) := by
  show V c main_v46 (((cfg1.win 2).blk t).view.emb (ix2 (0 : Fin 1) q)) = V c main_v46 (ix2 (0 : Fin 1) q)
  refine congrArg _ (funext fun a => Fin.ext ?_)
  obtain ⟨-, -, -, -, e4, e5, -⟩ := index_facts t
  match a with
  | ⟨0, _⟩ => show win1_2.index t (0 : Fin 2) * 1 + 1 * 0 = 0; omega
  | ⟨1, _⟩ => show win1_2.index t (1 : Fin 2) * 128 + 1 * q.val = q.val; omega

/-- What point t writes back is block t of the whole result. -/
theorem flushed_eq (c : Dev nD) (t : Fin cfg1.N) :
    (dat1 V c).flushed 3 t
      = ((cfg1.win 3).blk t).view.read (Elt Ideal) (scaleShiftClip (V c main_v28_0) (V c main_v44) (V c main_v46)) := by
  show (cfg1.win 3).cut (grid1.coords t) ((dat1 V c).after 3 t) = _
  rw [after1_3]
  unfold out1_3
  rw [View.canon_unit_zero hz]
  simp only [View.ld_unit_zero (S := S8000x128) hz, View.ld_unit_zero (S := S1x128) hz]
  funext j
  obtain ⟨p, q, rfl⟩ : ∃ (p : Fin 8000) (q : Fin 128), j = ix2 p q := ⟨j 0, j 1, eq_ix2 j⟩
  obtain ⟨-, -, -, -, -, -, e6, e7⟩ := index_facts t
  have o0 : ((((cfg1.win 3).blk t).view.emb (ix2 p q)) 0).val = t.val * 8000 + p.val := by
    show win1_3.index t (0 : Fin 2) * 8000 + 1 * p.val = _; omega
  have o1 : ((((cfg1.win 3).blk t).view.emb (ix2 p q)) 1).val = q.val := by
    show win1_3.index t (1 : Fin 2) * 128 + 1 * q.val = _; omega
  show k1_pay1 (iblk1 V c 0 t) (iblk1 V c 1 t) (iblk1 V c 2 t) (ix2 p q)
    = scaleShiftClip (V c main_v28_0) (V c main_v44) (V c main_v46) (((cfg1.win 3).blk t).view.emb (ix2 p q))
  rw [block_apply, read_h V c t p q _ o0 o1, read_scale, read_shift]
  unfold scaleShiftClip
  have e : (((cfg1.win 3).blk t).view.emb (ix2 p q)) 1 = q := Fin.ext o1
  rw [e]

/-- An index of the result lies in point t's block iff each coordinate is in the block's range on its axis. -/
theorem mem_blk (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v47).slice (win1_3.rect t)).set ↔ _
  rw [View.set_slice_whole, Rect.mem_set_unit]
  exact Iff.rfl

/-- Every row lies in the block of the point r / 8000. -/
theorem cover (i : S800000x128.Idx) : ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 100 := N_1
  let t : Fin cfg1.N := ⟨(i 0).val / 8000, by rw [hN]; omega⟩
  refine ⟨t, flush1_3 t, ?_⟩
  rw [mem_blk]
  obtain ⟨-, -, -, -, -, -, e6, e7⟩ := index_facts t
  have ht : t.val = (i 0).val / 8000 := rfl
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- The result array after the call. -/
theorem final (c : Dev nD) :
    (dat1 V c).arrAt 3 cfg1.N = scaleShiftClip (V c main_v28_0) (V c main_v44) (V c main_v46) :=
  (dat1 V c).arrAt_eq_of_cover 3 _ (fun t _ => flushed_eq V c t) cover

end Cert.KernelIdeal.Region1

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.ActSpec.lean ====
/-
  The edge activations as one function of the program's arguments, and that the reference computes it.

  With xi and xj the features of x gathered at the edges' target and source ends, the pre-activation is
  h (e, q) = ∑ k xi (e, k) · W1 (q, k) + ∑ k xj (e, k) · W1 (q, 128 + k) + b1 (q); the activation at (e, q) is column q of h
  normalised over the 800000 edges (mean and mean squared deviation of the column), scaled by the inverse root of the
  variance plus ε, by gamma (q), shifted by beta (q), and clipped below at zero.
  The reference joins xi and xj along the columns and multiplies by the transpose of W1: the joined product is the sum of
  the two products. Its sums start from the zero word, which is zero.
-/
import proofs.«117275_j9715216023597_2_alg».proof.Proof.Gen.ReferenceIdeal.Read
import proofs.«117275_j9715216023597_2_alg».proof.Proof.LibEdgeLinear
import proofs.«117275_j9715216023597_2_alg».proof.Proof.LibBatchNorm
import proofs.«117275_j9715216023597_2_alg».proof.Proof.LibConcat2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ActSpec

open Idealize.ShloMosaic Idealize.ShloMosaic.TcCoe Idealize.SL.Sem Idealize.ShloMosaic.ValueIdx
open Idealize.ShloMosaic.Pipeline (Dat)
open Cert.ReferenceIdeal Cert.ReferenceIdeal.Gen Cert.ReferenceIdeal.Read Cert.LibEdgeLinear Cert.LibBatchNorm

/-- The weight of the target-end features: entry (k, q) is W1 (q, k). -/
def wL (x2 : (⟨S128x256, .f32⟩ : BufTy).Contents (Elt Ideal)) : (⟨2, ![128, 128]⟩ : Shape).Idx → EReal :=
  fun i => x2 (ix2 (i 1) (⟨(i 0).val, by have := idx2_lt0 i; omega⟩ : Fin 256))

/-- The weight of the source-end features: entry (k, q) is W1 (q, 128 + k). -/
def wR (x2 : (⟨S128x256, .f32⟩ : BufTy).Contents (Elt Ideal)) : (⟨2, ![128, 128]⟩ : Shape).Idx → EReal :=
  fun i => x2 (ix2 (i 1) (⟨128 + (i 0).val, by have := idx2_lt0 i; omega⟩ : Fin 256))

/-- The bias as a row. -/
def bRow (x3 : (⟨S128, .f32⟩ : BufTy).Contents (Elt Ideal)) : (⟨2, ![1, 128]⟩ : Shape).Idx → EReal :=
  fun i => x3 (ix1 (i 1))

/-- The pre-activation at edge e, channel q. -/
def pre (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (e : Fin 800000) (q : Fin 128) : EReal :=
  preAt (val_main_v10 (F := Ideal) x0 x1) (val_main_v17 (F := Ideal) x0 x1) (wL x2) (wR x2) (bRow x3) e q

/-- The number of edges, as the float word the programs divide by. -/
def edgeCount : EReal := Ideal.ofBits .f32 0x49435000#32
/-- The variance offset, as the float word the programs add. -/
def varEps : EReal := Ideal.ofBits .f32 0x3727C5AC#32

/-- The edge activations. -/
def act (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S128, .f32⟩ : BufTy).Contents (Elt Ideal)) : S800000x128.Idx → EReal :=
  fun i => centredNorm (fun e : Fin 800000 => pre x0 x1 x2 x3 e (i 1)) edgeCount (x4 (ix1 (i 1))) (x5 (ix1 (i 1))) varEps (i 0)

/-! ## The reference computes it -/

/-- The reference's pre-activation. -/
theorem ref_pre (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (e : Fin 800000) (q : Fin 128) :
    val_main_v23 (F := Ideal) x0 x1 x2 x3 (ix2 e q) = pre x0 x1 x2 x3 e q := by
  rw [val_main_v23_apply, val_main_v20_apply, val_main_v22_apply, val_main_v21_apply]
  have el : ∀ k : Fin 256, lidx_main_v20 (ix2 e q) k = ix2 e k := fun k =>
    funext fun a => Fin.ext (by match a with | ⟨0, _⟩ => rfl | ⟨1, _⟩ => rfl)
  have er : ∀ k : Fin 256, ridx_main_v20 (ix2 e q) k = ix2 k q := fun k =>
    funext fun a => Fin.ext (by match a with | ⟨0, _⟩ => rfl | ⟨1, _⟩ => rfl)
  have eb : idx_main_v21 (idx_main_v22 (ix2 e q)) = ix1 q :=
    funext fun a => Fin.ext (by match a with | ⟨0, _⟩ => rfl)
  simp only [el, er, eb]
  unfold pre preAt
  refine congrArg₂ (fun a b : EReal => a + b) ?_ rfl
  refine joined_dot (by norm_num) (val_main_v18 (F := Ideal) x0 x1) (val_main_v19 (F := Ideal) x2) _ _ _ _ e q ?_ ?_ ?_ ?_
  · intro k h
    unfold val_main_v18
    exact LibConcat2.concat_cols_left _ _ _ e k h
  · intro k h
    unfold val_main_v18
    exact LibConcat2.concat_cols_right _ _ _ e k h
  · intro k h
    rw [val_main_v19_apply]
    exact congrArg x2 (funext fun a => Fin.ext (by match a with | ⟨0, _⟩ => rfl | ⟨1, _⟩ => rfl))
  · intro k h
    rw [val_main_v19_apply]
    exact congrArg x2 (funext fun a => Fin.ext (by match a with | ⟨0, _⟩ => rfl | ⟨1, _⟩ => rfl))

/-- The reference's column mean. -/
theorem ref_mean (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (q : Fin 128) :
    val_main_v26 (F := Ideal) x0 x1 x2 x3 (ix1 q) = Ideal.div (∑ e : Fin 800000, pre x0 x1 x2 x3 e q) edgeCount := by
  rw [val_main_v26_apply, val_main_v24_apply, val_main_v25_apply, val_main_cst_apply, val_main_cst_3_apply]
  have ei : ∀ k : Fin 800000, idx_main_v24 (ix1 q) k = ix2 k q := fun k => funext fun a => Fin.ext (by match a with | ⟨0, _⟩ => rfl | ⟨1, _⟩ => rfl)
  simp only [ei, ref_pre]
  show Ideal.div (Ideal.ofBits .f32 0x00000000#32 + _) _ = _
  rw [Ideal.ofBits_zero_f32, zero_add]
  rfl

/-- The reference's deviation from the mean (its first spelling, squared for the variance). -/
theorem ref_dev (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (e : Fin 800000) (q : Fin 128) :
    val_main_v29 (F := Ideal) x0 x1 x2 x3 (ix2 e q)
      = pre x0 x1 x2 x3 e q - Ideal.div (∑ e : Fin 800000, pre x0 x1 x2 x3 e q) edgeCount := by
  rw [val_main_v29_apply, val_main_v28_apply, val_main_v27_apply, ref_pre]
  have ei : idx_main_v27 (idx_main_v28 (ix2 e q)) = ix1 q := funext fun a => Fin.ext (by match a with | ⟨0, _⟩ => rfl)
  rw [ei, ref_mean]
  rfl

/-- The reference's deviation from the mean (its second spelling, scaled for the result). -/
theorem ref_dev' (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (e : Fin 800000) (q : Fin 128) :
    val_main_v36 (F := Ideal) x0 x1 x2 x3 (ix2 e q)
      = pre x0 x1 x2 x3 e q - Ideal.div (∑ e : Fin 800000, pre x0 x1 x2 x3 e q) edgeCount := by
  rw [val_main_v36_apply, val_main_v35_apply, val_main_v34_apply, ref_pre]
  have ei : idx_main_v34 (idx_main_v35 (ix2 e q)) = ix1 q := funext fun a => Fin.ext (by match a with | ⟨0, _⟩ => rfl)
  rw [ei, ref_mean]
  rfl

/-- The reference's column variance: the mean squared deviation. -/
theorem ref_var (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (q : Fin 128) :
    val_main_v33 (F := Ideal) x0 x1 x2 x3 (ix1 q)
      = Ideal.div (∑ e : Fin 800000, (pre x0 x1 x2 x3 e q - Ideal.div (∑ e : Fin 800000, pre x0 x1 x2 x3 e q) edgeCount)
          * (pre x0 x1 x2 x3 e q - Ideal.div (∑ e : Fin 800000, pre x0 x1 x2 x3 e q) edgeCount)) edgeCount := by
  rw [val_main_v33_apply, val_main_v31_apply, val_main_v32_apply, val_main_cst_4_apply, val_main_cst_5_apply]
  have ei : ∀ k : Fin 800000, idx_main_v31 (ix1 q) k = ix2 k q := fun k => funext fun a => Fin.ext (by match a with | ⟨0, _⟩ => rfl | ⟨1, _⟩ => rfl)
  simp only [ei, val_main_v30_apply, ref_dev]
  show Ideal.div (Ideal.ofBits .f32 0x00000000#32 + _) _ = _
  rw [Ideal.ofBits_zero_f32, zero_add]
  rfl

/-- The reference computes the edge activations. -/
theorem ref_act (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S128, .f32⟩ : BufTy).Contents (Elt Ideal)) : val_main_v49 (F := Ideal) x0 x1 x2 x3 x4 x5 = act x0 x1 x2 x3 x4 x5 := by
  funext i
  obtain ⟨e, q, rfl⟩ : ∃ (e : Fin 800000) (q : Fin 128), i = ix2 e q := ⟨i 0, i 1, eq_ix2 i⟩
  rw [val_main_v49_apply, val_main_v48_apply, val_main_v45_apply, val_main_v42_apply, ref_dev', val_main_v41_apply,
    val_main_v40_apply, val_main_v39_apply, val_main_v38_apply, val_main_v37_apply, val_main_cst_6_apply,
    val_main_v44_apply, val_main_v43_apply, val_main_v47_apply, val_main_v46_apply, val_main_call0_v0_apply,
    val_main_call0_cst_apply]
  have e1 : idx_main_v40 (idx_main_v41 (ix2 e q)) = ix1 q := funext fun a => Fin.ext (by match a with | ⟨0, _⟩ => rfl)
  have e2 : idx_main_v43 (idx_main_v44 (ix2 e q)) = ix1 q := funext fun a => Fin.ext (by match a with | ⟨0, _⟩ => rfl)
  have e3 : idx_main_v46 (idx_main_v47 (ix2 e q)) = ix1 q := funext fun a => Fin.ext (by match a with | ⟨0, _⟩ => rfl)
  rw [e1, e2, e3, ref_var]
  unfold act centredNorm
  show max (_ * Ideal.rsqrt (_ + Ideal.ofBits .f32 0x3727C5AC#32) * _ + _) (Ideal.ofBits .f32 0x00000000#32) = _
  rw [Ideal.ofBits_zero_f32]
  rfl

/-! ## The two float words -/

/-- The word 0x49435000 is 800000. -/
theorem edgeCount_eq : edgeCount = ((800000 : ℝ) : EReal) := by
  unfold edgeCount
  simp [Ideal.ofBits, Ideal.ieee, -EReal.coe_mul]
  norm_num

/-- The word 0x3727C5AC is a positive real. -/
theorem varEps_pos : ∃ r : ℝ, 0 < r ∧ varEps = (r : EReal) := by
  refine ⟨10995116 * (2 : ℝ) ^ (-40 : ℤ), by positivity, ?_⟩
  unfold varEps
  simp [Ideal.ofBits, Ideal.ieee, -EReal.coe_mul]

/-! ## The node means -/

/-- The scatter-mean of an array of edge activations into the target nodes, as the reference spells it. -/
def nodeMeans (a : FVec Ideal S800000x128 .f32) (x1 : (⟨S2x800000, .i32⟩ : BufTy).Contents (Elt Ideal)) :
    FVec Ideal S50000x128 .f32 :=
  Host.divf (F := Ideal) (φ := .f32) (Host.scatterAdd (F := Ideal) (φ := .f32) scatter_S50000x128_S800000x1_S800000x128_1_0_0_1 (val_main_v50 (F := Ideal)) (val_main_v51 (F := Ideal) x1) a)
    (val_main_v60 (F := Ideal) x1)

/-- The reference's first result is the scatter-mean of its second. -/
theorem ref_means (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S128, .f32⟩ : BufTy).Contents (Elt Ideal)) :
    val_main_v61 (F := Ideal) x0 x1 x2 x3 x4 x5 = nodeMeans (val_main_v49 (F := Ideal) x0 x1 x2 x3 x4 x5) x1 := rfl

/-! ## Real data give real pre-activations -/

theorem pre_isReal (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 : (⟨S128, .f32⟩ : BufTy).Contents (Elt Ideal)) (h0 : ∀ i, IsReal (x0 i)) (h2 : ∀ i, IsReal (x2 i)) (h3 : ∀ i, IsReal (x3 i))
    (e : Fin 800000) (q : Fin 128) : IsReal (pre x0 x1 x2 x3 e q) := by
  unfold pre preAt
  refine isReal_add (isReal_add (isReal_sum _ _ fun k => isReal_mul (h0 _) (h2 _)) (isReal_sum _ _ fun k => isReal_mul (h0 _) (h2 _))) (h3 _)

end Cert.ActSpec

end
-- ==== Proof.Finite.lean ====
/-
  The precondition read back: when the printed test "every float input is finite" comes out all ones, every entry of x, W1,
  b1, gamma and beta is a real number. The test is a conjunction of five reductions by "and" of the elementwise comparisons
  |v| < +∞; each conjunct is one, so each reduction is one, so each comparison is one, and an extended real whose absolute
  value lies below +∞ is a real number. The word 0x7F800000 denotes +∞.
-/
import proofs.«117275_j9715216023597_2_alg».proof.Pre_finite_inputs
import Idealize.ShloMosaic.Lib.ReduceAll
import Idealize.ShloMosaic.Lib.ValueIdx
import Idealize.ShloMosaic.PureOps.Ideal.Laws
import proofs.«117275_j9715216023597_2_alg».proof.Proof.LibBatchNorm

noncomputable section

namespace Cert.Finite

open Idealize.ShloMosaic Idealize.ShloMosaic.ValueIdx Cert.Pre_finite_inputs Cert.LibBatchNorm

instance : Subsingleton S_.Idx := ⟨fun a b => funext fun d => d.elim0⟩

/-- Both operands of an "and" that is one are one. -/
theorem and_split {s : Shape} (a b : IVec s 1) (i : s.Idx) (h : andi a b i = 1#1) : a i = 1#1 ∧ b i = 1#1 :=
  IntOp.andi_eq_one.1 h

/-- The word 0x7F800000 is +∞. -/
theorem ofBits_inf : Ideal.ofBits .f32 0x7F800000#32 = (⊤ : EReal) := by
  simp [Ideal.ofBits, Ideal.ieee]

/-- An entry that passes the test |v| < +∞ is a real number. -/
theorem real_of_test (v : EReal) (h : Ideal.cmp .olt (max v (-v)) (Ideal.ofBits .f32 0x7F800000#32) = 1#1) : IsReal v := by
  rw [ofBits_inf] at h
  refine isReal_of_abs_lt_top ?_
  by_contra hc
  have h0 : Ideal.cmp .olt (max v (-v)) ⊤ = 0#1 := by
    unfold Ideal.cmp
    rw [decide_eq_false hc]
    rfl
  rw [h0] at h
  exact absurd h (by decide)

variable [Facts]
open Facts

/-- One array whose test reduces to one holds real numbers only. -/
theorem real_of_all {s : Shape} (x : FVec Ideal s .f32) (hb : S_.BroadcastsInDim s (![] : Fin 0 → Fin s.rank)) {axes : List (Fin s.rank)}
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : IsReal (x i) :=
  real_of_test (x i) (Host.reduce_andi_all _ _ hr hu ix0 h i)

/-- Under the precondition every float input holds real numbers only. -/
theorem all_real (x0 : FVec Ideal S50000x128 .f32) (x1 : IVec S2x800000 32) (x2 : FVec Ideal S128x256 .f32) (x3 x4 x5 : FVec Ideal S128 .f32)
    (h : fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  dsimp only [fn, fn_part1] at h0
  obtain ⟨h0123, h5⟩ := and_split _ _ _ h0
  obtain ⟨h012, h4⟩ := and_split _ _ _ h0123
  obtain ⟨h01, h3⟩ := and_split _ _ _ h012
  obtain ⟨h00, h2⟩ := and_split _ _ _ h01
  exact ⟨real_of_all x0 _ _ _ h00, real_of_all x2 _ _ _ h2, real_of_all x3 _ _ _ h3, real_of_all x4 _ _ _ h4, real_of_all x5 _ _ _ h5⟩

end Cert.Finite

end
-- ==== Proof.KernelAct.lean ====
/-
  The kernel program's two results as functions of its arguments.
  The h array the first call leaves is the pre-activation; the two arrays of totals, summed over the two cores by the host,
  are the column sums of h and of its squares over all 800000 edges (2 shares of 50 blocks of 8000 rows); so the second call
  returns the folded arrangement of the normalisation, which on real data is the centred one the reference computes. The
  first result is the scatter-mean of the second into the target nodes, spelled as the reference spells it.
-/
import proofs.«117275_j9715216023597_2_alg».proof.Proof.Gen.KernelIdeal.Frame
import proofs.«117275_j9715216023597_2_alg».proof.Proof.Entry0
import proofs.«117275_j9715216023597_2_alg».proof.Proof.Entry1
import proofs.«117275_j9715216023597_2_alg».proof.Proof.Region0Value
import proofs.«117275_j9715216023597_2_alg».proof.Proof.Region1
import proofs.«117275_j9715216023597_2_alg».proof.Proof.ActSpec
import proofs.«117275_j9715216023597_2_alg».proof.Proof.Finite
import proofs.«117275_j9715216023597_2_alg».proof.Proof.Gen.Pre_finite_inputs
import proofs.«117275_j9715216023597_2_alg».proof.Proof.LibEdgeLinear
import proofs.«117275_j9715216023597_2_alg».proof.Proof.LibBatchNorm
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Out

open Idealize.ShloMosaic Idealize.ShloMosaic.TcCoe Idealize.SL.Sem Idealize.ShloMosaic.ValueIdx
open Idealize.ShloMosaic.Pipeline (Dat)
open Cert.KernelIdeal Cert.KernelIdeal.Gen Cert.LibEdgeLinear Cert.LibBatchNorm Cert.ActSpec Idealize.ShloMosaic.StableHlo

variable (m : (ℓ : Loc nD τ sig) → Buf (Elt Ideal) ℓ) (ρ : Dev nD → PrngReg) (c : Dev nD)

/-- The h array of the first call is the pre-activation. -/
theorem pre_eq (e : Fin 800000) (q : Fin 128) :
    Region0.hAt (V1 m ρ) c e q = pre (m ((c : Thread nD τ).loc main_arg0)) (m ((c : Thread nD τ).loc main_arg1)) (m ((c : Thread nD τ).loc main_arg2)) (m ((c : Thread nD τ).loc main_arg3)) e q := by
  unfold Region0.hAt pre
  refine preAt_congr _ _ _ _ _ _ _ _ _ _ e e q (fun k => ?_) (fun k => ?_) (fun k => ?_) (fun k => ?_) ?_
  · exact congrFun (Entry0.feat_dst m ρ c) (ix2 e k)
  · exact congrFun (Entry0.feat_src m ρ c) (ix2 e k)
  · exact Entry0.weight_dst m ρ c k q
  · exact Entry0.weight_src m ρ c k q
  · exact Entry0.bias_row m ρ c q

/-- The two cores' column totals add up to the column sum of the pre-activation over all edges. -/
theorem tot_eq (q : Fin 128) :
    Entry1.stat (Region0.totArr (V1 m ρ) c) (ix2 (0 : Fin 1) q) = ∑ e : Fin 800000, pre (m ((c : Thread nD τ).loc main_arg0)) (m ((c : Thread nD τ).loc main_arg1)) (m ((c : Thread nD τ).loc main_arg2)) (m ((c : Thread nD τ).loc main_arg3)) e q := by
  rw [Entry1.stat_apply]
  have hs := sum_shares (fun n => Region0.gcol (V1 m ρ) c q n)
  rw [Fin.sum_univ_two] at hs
  refine Eq.trans ?_ (hs.trans (Finset.sum_congr rfl fun e _ => ?_))
  · rfl
  · show Region0.gcol (V1 m ρ) c q e.val = _
    unfold Region0.gcol
    rw [dif_pos e.isLt]
    exact pre_eq m ρ c ⟨e.val, e.isLt⟩ q

/-- The two cores' totals of squares add up to the column sum of squares over all edges. -/
theorem sq_eq (q : Fin 128) :
    Entry1.stat (Region0.sqArr (V1 m ρ) c) (ix2 (0 : Fin 1) q)
      = ∑ e : Fin 800000, pre (m ((c : Thread nD τ).loc main_arg0)) (m ((c : Thread nD τ).loc main_arg1)) (m ((c : Thread nD τ).loc main_arg2)) (m ((c : Thread nD τ).loc main_arg3)) e q * pre (m ((c : Thread nD τ).loc main_arg0)) (m ((c : Thread nD τ).loc main_arg1)) (m ((c : Thread nD τ).loc main_arg2)) (m ((c : Thread nD τ).loc main_arg3)) e q := by
  rw [Entry1.stat_apply]
  have hs := sum_shares (fun n => Region0.gcol (V1 m ρ) c q n * Region0.gcol (V1 m ρ) c q n)
  rw [Fin.sum_univ_two] at hs
  refine Eq.trans ?_ (hs.trans (Finset.sum_congr rfl fun e _ => ?_))
  · rfl
  · show Region0.gcol (V1 m ρ) c q e.val * Region0.gcol (V1 m ρ) c q e.val = _
    unfold Region0.gcol
    rw [dif_pos e.isLt, pre_eq m ρ c ⟨e.val, e.isLt⟩ q]

/-- The second result is what the second call leaves. -/
theorem act_out : W5 m ρ c (Proc.devRef .tc main_v47)
    = Region1.scaleShiftClip (V3 m ρ c main_v28_0) (V3 m ρ c main_v44) (V3 m ρ c main_v46) := by
  show StableHlo.after hostOps2 (W4 m ρ c) (Proc.devRef .tc main_v47) = _
  after_results_simp
  exact (W4_arr m ρ c 3).trans (Region1.final (V3 m ρ) c)

/-- Entry (e, q) of the second result: the folded arrangement of the normalisation of column q. -/
theorem act_apply (e : Fin 800000) (q : Fin 128) :
    W5 m ρ c (Proc.devRef .tc main_v47) (ix2 e q)
      = foldedNorm (pre (m ((c : Thread nD τ).loc main_arg0)) (m ((c : Thread nD τ).loc main_arg1)) (m ((c : Thread nD τ).loc main_arg2)) (m ((c : Thread nD τ).loc main_arg3)) e q) (∑ e : Fin 800000, pre (m ((c : Thread nD τ).loc main_arg0)) (m ((c : Thread nD τ).loc main_arg1)) (m ((c : Thread nD τ).loc main_arg2)) (m ((c : Thread nD τ).loc main_arg3)) e q)
          (∑ e : Fin 800000, pre (m ((c : Thread nD τ).loc main_arg0)) (m ((c : Thread nD τ).loc main_arg1)) (m ((c : Thread nD τ).loc main_arg2)) (m ((c : Thread nD τ).loc main_arg3)) e q * pre (m ((c : Thread nD τ).loc main_arg0)) (m ((c : Thread nD τ).loc main_arg1)) (m ((c : Thread nD τ).loc main_arg2)) (m ((c : Thread nD τ).loc main_arg3)) e q) edgeCount (Entry1.gainAt m c q) (Entry1.offsetAt m c q) varEps := by
  rw [act_out]
  unfold Region1.scaleShiftClip
  show (fun hh ss tt : EReal => max (hh * ss + tt) 0) (V3 m ρ c main_v28_0 (ix2 e q)) (V3 m ρ c main_v44 (ix2 (0 : Fin 1) q))
    (V3 m ρ c main_v46 (ix2 (0 : Fin 1) q)) = _
  rw [Entry1.h_in, Entry1.scale_apply, Entry1.shift_apply, tot_eq, sq_eq]
  unfold Region0.hArr
  show (fun hh ss tt : EReal => max (hh * ss + tt) 0) (Region0.hAt (V1 m ρ) c e q) _ _ = _
  rw [pre_eq, Ideal.ofBits_zero_f32]
  rfl

/-- Under the precondition the second result is the edge activations. -/
theorem out1 (hp : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) :
    (W5 m ρ c (Proc.devRef .tc main_v47) : S800000x128.Idx → EReal) = act (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h0, h2, h3, h4, h5⟩ := Cert.Finite.all_real _ _ _ _ _ _ hp
  obtain ⟨ε', hε', hε⟩ := varEps_pos
  funext i
  obtain ⟨e, q, rfl⟩ : ∃ (e : Fin 800000) (q : Fin 128), i = ix2 e q := ⟨i 0, i 1, eq_ix2 i⟩
  rw [act_apply]
  unfold act
  rw [edgeCount_eq]
  exact foldedNorm_eq_centredNorm (fun e => pre (m ((c : Thread nD τ).loc main_arg0)) (m ((c : Thread nD τ).loc main_arg1)) (m ((c : Thread nD τ).loc main_arg2)) (m ((c : Thread nD τ).loc main_arg3)) e q) (fun e => pre_isReal _ _ _ _ h0 h2 h3 e q)
    800000 (by simp) (by norm_num) (h4 _) (h5 _) ε' hε hε' e

/-- The first result is the scatter-mean of the second into the target nodes. -/
theorem out0 : (W5 m ρ c (Proc.devRef .tc main_v59) : S50000x128.Idx → EReal)
    = nodeMeans (W5 m ρ c (Proc.devRef .tc main_v47)) (m ((c : Thread nD τ).loc main_arg1)) := by
  have hidx : W4 m ρ c (Proc.devRef .tc main_v1) = Cert.ReferenceIdeal.Read.val_main_v3 (F := Ideal) (m ((c : Thread nD τ).loc main_arg1)) := by
    rw [W4_of_ne m ρ c main_v1 (by decide)]
    show StableHlo.after hostOps1 (W2 m ρ c) (Proc.devRef .tc main_v1) = _
    after_results_simp
    rw [W2_of_ne m ρ c main_v1 (by decide)]
    exact Entry0.target_idx m ρ c
  show StableHlo.after hostOps2 (W4 m ρ c) (Proc.devRef .tc main_v59) = _
  after_results_simp
  rw [hidx]
  rfl

end Cert.KernelIdeal.Out

end
-- ==== Proof.lean ====
/-
  The certificate's five claims for the edge-convolution block: a linear layer on the features of an edge's two end nodes,
  batch normalisation over the edges, a rectifier, and a scatter-mean into the target nodes.

  The three programs run, fault-free, and leave their arguments as launched: the two kernel programs by their generated
  frames, the reference by its generated run. The ideal pass rewrote nothing. At the ideal values the kernel program and the
  reference return the same two arrays: the kernel's first call leaves the pre-activation h and, per core, the column sums
  of h and of h² over the core's 50 blocks of 8000 edges; the host adds the two cores' rows, which gives the sums over all
  800000 edges, and folds mean, variance (mean of squares minus squared mean, clipped at zero), gamma and beta into one
  scale and one shift per channel; the second call returns max (h · scale + shift) 0. The reference centres h, divides by
  the root of the mean squared deviation plus ε, applies gamma and beta and clips. Under the precondition every entry of x,
  W1, b1, gamma and beta is a real number, so h is real, the two variances are one nonnegative number, and the two
  arrangements agree by ring arithmetic. The scatter-mean after it is the same host expression of the same activations and
  target indices in both programs.
-/
import proofs.«117275_j9715216023597_2_alg».proof.Defs
import proofs.«117275_j9715216023597_2_alg».proof.Proof.Gen.Kernel
import proofs.«117275_j9715216023597_2_alg».proof.Proof.Gen.Kernel.Skeleton
import proofs.«117275_j9715216023597_2_alg».proof.Proof.Gen.Kernel.Launch
import proofs.«117275_j9715216023597_2_alg».proof.Proof.Gen.Kernel.Points
import proofs.«117275_j9715216023597_2_alg».proof.Proof.Gen.Kernel.Frame
import proofs.«117275_j9715216023597_2_alg».proof.Proof.Gen.KernelIdeal
import proofs.«117275_j9715216023597_2_alg».proof.Proof.Gen.KernelIdeal.Skeleton
import proofs.«117275_j9715216023597_2_alg».proof.Proof.Gen.KernelIdeal.Launch
import proofs.«117275_j9715216023597_2_alg».proof.Proof.Gen.KernelIdeal.Points
import proofs.«117275_j9715216023597_2_alg».proof.Proof.Gen.KernelIdeal.Frame
import proofs.«117275_j9715216023597_2_alg».proof.Proof.Gen.ReferenceIdeal
import proofs.«117275_j9715216023597_2_alg».proof.Proof.Gen.ReferenceIdeal.Run
import proofs.«117275_j9715216023597_2_alg».proof.Proof.Gen.ReferenceIdeal.Read
import proofs.«117275_j9715216023597_2_alg».proof.Proof.Gen.Pre_finite_inputs
import proofs.«117275_j9715216023597_2_alg».proof.Proof.KernelRun
import proofs.«117275_j9715216023597_2_alg».proof.Proof.KernelAct
import proofs.«117275_j9715216023597_2_alg».proof.Proof.ActSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the edge activations as their second result and the scatter-mean of them as their first. -/
theorem algebraic : Cert.algebraic_KernelIdeal_ReferenceIdeal := by
  intro m ρ m' ρ' hpre hagree
  refine ⟨fun c => Cert.ActSpec.nodeMeans (Cert.ActSpec.act (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg1)),
    fun c => Cert.ActSpec.act (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Results.run_results m ρ)
    obtain ⟨h59, h47, hargs⟩ := h c
    have e1 := Cert.KernelIdeal.Out.out1 m ρ c (hpre c)
    have e0 := Cert.KernelIdeal.Out.out0 m ρ c
    refine ⟨h59.trans (e0.trans ?_), h47.trans e1, hargs⟩
    rw [e1]
  · refine (θ_run Cert.ReferenceIdeal.defs _ _).mono (fun r h c => ?_) (Cert.ReferenceIdeal.Value.run (F := Ideal) m' ρ')
    obtain ⟨h61, h49, hargs⟩ := h c
    obtain ⟨a0, a1, a2, a3, a4, a5⟩ := hagree c
    refine ⟨h61.trans ?_, h49.trans ?_, hargs⟩
    · rw [Cert.ReferenceIdeal.Read.val_main_v61_eq, Cert.ActSpec.ref_means, Cert.ActSpec.ref_act, a0, a1, a2, a3, a4, a5]
    · rw [Cert.ReferenceIdeal.Read.val_main_v49_eq, Cert.ActSpec.ref_act, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
